-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x2048x1024 : Shape := ⟨3, ![8, 2048, 1024]⟩
abbrev S1 : Shape := ⟨1, ![1]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8x1024x1024 .f32) (main_arg1 : FVec F S8x2048x1024 .f32) (main_arg2 : FVec F S1 .f32) (main_arg3 : FVec F S1 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8x1024x1024 : Shape := ⟨3, ![8, 1024, 1024]⟩
abbrev S8x2048x1024 : Shape := ⟨3, ![8, 2048, 1024]⟩
abbrev S1 : Shape := ⟨1, ![1]⟩
abbrev S8x1024x2048 : Shape := ⟨3, ![8, 1024, 2048]⟩
abbrev S1x256x1024 : Shape := ⟨3, ![1, 256, 1024]⟩
abbrev S1x1024x1024 : Shape := ⟨3, ![1, 1024, 1024]⟩
abbrev S1x256x2048 : Shape := ⟨3, ![1, 256, 2048]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S8x2048x2048 : Shape := ⟨3, ![8, 2048, 2048]⟩

abbrev nBuf : Space → Nat
  | .hbm => 8
  | .vmem => 14
  | .smem => 0
  | _ => 0

abbrev bufTy : (tb : Table) → Fin (tcTables nBuf tb) → BufTy
  | .hbm, ⟨0, _⟩ => ⟨S8x1024x1024, .f32⟩
  | .hbm, ⟨1, _⟩ => ⟨S8x2048x1024, .f32⟩
  | .hbm, ⟨2, _⟩ => ⟨S1, .f32⟩
  | .hbm, ⟨3, _⟩ => ⟨S1, .f32⟩
  | .hbm, ⟨4, _⟩ => ⟨S8x1024x2048, .f32⟩
  | .hbm, ⟨5, _⟩ => ⟨S8x1024x1024, .f32⟩
  | .hbm, ⟨6, _⟩ => ⟨S8x2048x2048, .f32⟩
  | .hbm, ⟨7, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x256x2048, .f32⟩
  | .local _ .vmem, ⟨4, _⟩ => ⟨S1x256x2048, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x1024x1024, .f32⟩
  | .local _ .vmem, ⟨10, _⟩ => ⟨S1x256x2048, .f32⟩
  | .local _ .vmem, ⟨11, _⟩ => ⟨S1x256x2048, .f32⟩
  | .local _ .vmem, ⟨12, _⟩ => ⟨S1x256x1024, .f32⟩
  | .local _ .vmem, ⟨13, _⟩ => ⟨S1x256x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  broadcasts_S256x1_S256x1024 : S256x1.Broadcasts S256x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  transposes_S1024x1024_p1_0_S1024x1024 : S1024x1024.Transposes [1, 0] S1024x1024
  inb_S1x256x2048_S1x256x1024_0_0_0 : ∀ a, (![0, 0, 0] : Fin 3 → Nat) a + S1x256x1024.size a ≤ S1x256x2048.size a
  shapeCasts_S256x1024_S1x256x1024 : S256x1024.ShapeCasts S1x256x1024
  inb_S1x256x2048_S1x256x1024_0_0_1024 : ∀ a, (![0, 0, 1024] : Fin 3 → Nat) a + S1x256x1024.size a ≤ S1x256x2048.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1024x1024.size a
  hwx0_0 : ∀ i : grid0.Coords, EltTy.bits .f32 = 32 ∨ (Rect.block (s := S8x1024x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x1024x2048.size a
  hwx0_2 : ∀ i : grid0.Coords, EltTy.bits .f32 = 32 ∨ (Rect.block (s := S8x1024x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x1024x1024.size a
  hwx0_3 : ∀ i : grid0.Coords, EltTy.bits .f32 = 32 ∨ (Rect.block (s := S8x1024x1024) S1x256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .f32 = 32 ∨ (Rect.block (s := S8x1024x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S8x2048x2048.size a
  hwx1_2 : ∀ i : grid1.Coords, EltTy.bits .f32 = 32 ∨ (Rect.block (s := S8x2048x2048) S1x256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S8x2048x1024.size a
  hwx1_3 : ∀ i : grid1.Coords, EltTy.bits .f32 = 32 ∨ (Rect.block (s := S8x2048x1024) S1x256x1024.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x256x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x1024x1024 : Shape := ⟨3, ![8, 1024, 1024]⟩
abbrev S8x2048x1024 : Shape := ⟨3, ![8, 2048, 1024]⟩
abbrev S1 : Shape := ⟨1, ![1]⟩
abbrev S_ : Shape := ⟨0, ![]⟩
abbrev S8x1024 : Shape := ⟨2, ![8, 1024]⟩
abbrev S8x1024x1 : Shape := ⟨3, ![8, 1024, 1]⟩
abbrev S8x2048 : Shape := ⟨2, ![8, 2048]⟩
abbrev S8x2048x1 : Shape := ⟨3, ![8, 2048, 1]⟩
abbrev S8x1024x2048 : Shape := ⟨3, ![8, 1024, 2048]⟩
abbrev S8x2048x2048 : Shape := ⟨3, ![8, 2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x2048x1024, .f32⟩
  | .hbm, ⟨2, _⟩ => ⟨S1, .f32⟩
  | .hbm, ⟨3, _⟩ => ⟨S1, .f32⟩
  | .hbm, ⟨4, _⟩ => ⟨S8x1024x1024, .f32⟩
  | .hbm, ⟨5, _⟩ => ⟨S_, .f32⟩
  | .hbm, ⟨6, _⟩ => ⟨S8x1024, .f32⟩
  | .hbm, ⟨7, _⟩ => ⟨S8x1024x1, .f32⟩
  | .hbm, ⟨8, _⟩ => ⟨S8x1024x1, .f32⟩
  | .hbm, ⟨9, _⟩ => ⟨S_, .f32⟩
  | .hbm, ⟨10, _⟩ => ⟨S8x1024x1, .f32⟩
  | .hbm, ⟨11, _⟩ => ⟨S8x1024x1, .f32⟩
  | .hbm, ⟨12, _⟩ => ⟨S8x1024x1024, .f32⟩
  | .hbm, ⟨13, _⟩ => ⟨S8x1024x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S8x1024x1024, .f32⟩
  | .hbm, ⟨25, _⟩ => ⟨S8x2048x1024, .f32⟩
  | .hbm, ⟨26, _⟩ => ⟨S_, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024x1, .f32⟩
  | .hbm, ⟨32, _⟩ => ⟨S8x1024x1024, .f32⟩
  | .hbm, ⟨33, _⟩ => ⟨S8x1024x1024, .f32⟩
  | .hbm, ⟨34, _⟩ => ⟨S8x1024x1024, .f32⟩
  | .hbm, ⟨35, _⟩ => ⟨S_, .f32⟩
  | .hbm, ⟨36, _⟩ => ⟨S8x1024, .f32⟩
  | .hbm, ⟨37, _⟩ => ⟨S8x1024x1, .f32⟩
  | .hbm, ⟨38, _⟩ => ⟨S8x1024x1024, .f32⟩
  | .hbm, ⟨39, _⟩ => ⟨S8x1024x1024, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S8x1024x1024, .f32⟩
  | .hbm, ⟨55, _⟩ => ⟨S8x2048x1024, .f32⟩
  | .hbm, ⟨56, _⟩ => ⟨S8x1024x2048, .f32⟩
  | .hbm, ⟨57, _⟩ => ⟨S8x2048x2048, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  reducesTo_S8x1024x1024_S8x1024_d2 : S8x1024x1024.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  reducesTo_S8x2048x1024_S8x2048_d2 : S8x2048x1024.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S_S8x1024 : S_.BroadcastsInDim S8x1024 (![] : Fin 0 → Fin S8x1024.rank)
  bcast_S_S8x2048 : S_.BroadcastsInDim S8x2048 (![] : Fin 0 → Fin S8x2048.rank)
  concatenates_S8x1024x1024_S8x1024x1024_S8x1024x2048_d2 : Shape.Concatenates [S8x1024x1024, S8x1024x1024] S8x1024x2048 2
  concatenates_S8x2048x1024_S8x2048x1024_S8x2048x2048_d2 : Shape.Concatenates [S8x2048x1024, S8x2048x1024] S8x2048x2048 2
  dot_S8x1024x1024_S8x1024x1024_S8x1024x1024_2_2_1_1_0_0_wf : DotDims.WF S8x1024x1024 S8x1024x1024 S8x1024x1024 [2] [2] [1] [1] [0] [0]
  dot_S8x2048x1024_S8x1024x1024_S8x2048x1024_2_2_1_1_0_0_wf : DotDims.WF S8x2048x1024 S8x1024x1024 S8x2048x1024 [2] [2] [1] [1] [0] [0]
  dot_S8x1024x1024_S8x1024x1024_S8x1024x1024_2_1_1_2_0_0_wf : DotDims.WF S8x1024x1024 S8x1024x1024 S8x1024x1024 [2] [1] [1] [2] [0] [0]
  dot_S8x2048x1024_S8x1024x1024_S8x2048x1024_2_1_1_2_0_0_wf : DotDims.WF S8x2048x1024 S8x1024x1024 S8x2048x1024 [2] [1] [1] [2] [0] [0]

variable [Facts₀]

def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x2048x1024_S8x1024x1024_S8x2048x1024_2_2_1_1_0_0 : DotDims S8x2048x1024 S8x1024x1024 S8x2048x1024 where
  lhsContracting := [2]
  rhsContracting := [2]
  lhsNonContracting := [1]
  rhsNonContracting := [1]
  lhsBatch := [0]
  rhsBatch := [0]
  wf := dot_S8x2048x1024_S8x1024x1024_S8x2048x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf
def dot_S8x2048x1024_S8x1024x1024_S8x2048x1024_2_1_1_2_0_0 : DotDims S8x2048x1024 S8x1024x1024 S8x2048x1024 where
  lhsContracting := [2]
  rhsContracting := [1]
  lhsNonContracting := [1]
  rhsNonContracting := [2]
  lhsBatch := [0]
  rhsBatch := [0]
  wf := dot_S8x2048x1024_S8x1024x1024_S8x2048x1024_2_1_1_2_0_0_wf

class Facts : Prop extends Facts₀ where

variable [Facts]
-- ==== Proof.KernelBody.lean ====
/-
  The run of the kernel program's two pallas_calls, for any float instance.

  Each pallas_call is a pipeline over a grid (batch, query-row tile): at a grid point the body reads the query
  tile's block [1,256,1024] and the batch's whole support block [1,1024,1024] — both pallas_calls read the support
  array, the first one reads it through BOTH input windows — and writes the augmented block [1,256,2048] (the raw
  query rows on the left half of the last axis, the task embedding on the right half) and the weights block
  [1,256,1024]. This module runs the body once on generic blocks, states what each output block holds after it as a
  function of the two input blocks, and carries that through the pipeline of each call and through the two calls in
  sequence: every execution terminates without fault, the four argument arrays end unchanged, and each result array
  ends holding, block by block, the body's outputs at the blocks of the arrays as the call found them.
-/
import proofs.«109901_j17076789968986_1_alg».proof.Proof.Gen.Kernel.Launch
import proofs.«109901_j17076789968986_1_alg».proof.Proof.Gen.Kernel.Skeleton
import proofs.«109901_j17076789968986_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: pallas_call 0 at the contents `V` its arrays hold when it is entered -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the support
    window is fetched only when the batch index moves; between fetches its block index is unchanged). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: the whole query block, the whole support block, the left and the right
    half of the augmented block's last axis, the whole weights block. -/
abbrev rq0 : Rect S1x256x1024 := Rect.unit (s := S1x256x1024) ![0, 0, 0] S1x256x1024.size inb_S1x256x1024_S1x256x1024_0_0_0
abbrev rkv0 : Rect S1x1024x1024 := Rect.unit (s := S1x1024x1024) ![0, 0, 0] S1x1024x1024.size inb_S1x1024x1024_S1x1024x1024_0_0_0
abbrev rl0 : Rect S1x256x2048 := Rect.unit (s := S1x256x2048) ![0, 0, 0] S1x256x1024.size inb_S1x256x2048_S1x256x1024_0_0_0
abbrev rr0 : Rect S1x256x2048 := Rect.unit (s := S1x256x2048) ![0, 0, 1024] S1x256x1024.size inb_S1x256x2048_S1x256x1024_0_0_1024

/-- The augmented block after the body: the query block on the left half, the task embedding on the right half
    (the two stores as pieces, the later first). -/
def out0_2 (x0 : Vec F S1x256x1024 .f32) (x1 : Vec F S1x1024x1024 .f32) : Vec F S1x256x2048 .f32 :=
  View.canon [⟨rr0, k0_pay2 (k0_pay7 (View.ld x0 rq0) (View.ld x1 rkv0))⟩, ⟨rl0, k0_pay1 (k0_pay4 (View.ld x0 rq0))⟩]
/-- The weights block after the body: the softmax weights, stored whole. -/
def out0_3 (x0 : Vec F S1x256x1024 .f32) (x1 : Vec F S1x1024x1024 .f32) : Vec F S1x256x1024 .f32 :=
  View.canon [⟨rq0, k0_pay3 (k0_pay6 (View.ld x0 rq0) (View.ld x1 rkv0))⟩]

/-- The two half stores tile the augmented block; the one store covers the weights block. -/
theorem cover0_2 (p0 p1 : Vec F S1x256x1024 .f32) (y : S1x256x2048.Idx) :
    ∃ pc ∈ ([⟨rr0, p0⟩, ⟨rl0, p1⟩] : List (View.Piece (Elt F) S1x256x2048 .f32)), y ∈ pc.1.set :=
  View.cover_of_tiled [⟨rr0, p0⟩, ⟨rl0, p1⟩] S1x256x1024.size (by rfl) y
theorem cover0_3 (p0 : Vec F S1x256x1024 .f32) (y : S1x256x1024.Idx) :
    ∃ pc ∈ ([⟨rq0, p0⟩] : List (View.Piece (Elt F) S1x256x1024 .f32)), y ∈ pc.1.set :=
  View.cover_of_tiled [⟨rq0, p0⟩] S1x256x1024.size (by rfl) y

set_option maxHeartbeats 4000000 in
/-- The body on whole staging buffers — the inputs' at contents `x0`, `x1`, the outputs' at anything — runs to its end
    leaving the inputs as they were and the outputs at `out0_2`, `out0_3` of the inputs. -/
theorem sound_kernel0 (c : Dev nD) (E : Set ℕ) (i : grid0.Coords)
    (arg2 : Memref sig .tc .vmem S1x256x1024 .f32) (harg2 : arg2.IsWhole) (arg3 : Memref sig .tc .vmem S1x1024x1024 .f32) (harg3 : arg3.IsWhole)
    (arg4 : Memref sig .tc .vmem S1x256x2048 .f32) (harg4 : arg4.IsWhole) (arg5 : Memref sig .tc .vmem S1x256x1024 .f32) (harg5 : arg5.IsWhole)
    (x0 : Vec F S1x256x1024 .f32) (x1 : Vec F S1x1024x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__cos_attn_kernel i arg2 harg2 arg3 harg3 arg4 harg4 arg5 harg5) K := by
  simp only [cc0__cos_attn_kernel_eq_skeleton]; unfold cc0__cos_attn_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _ _)
  iexists _; isplitr
  swap; · iexact H3
  ipureintro
  exact View.read_writes_eq_canon _ _ _ (cover0_3 _)

/-- The proof data of pipeline 0: the arrays as the region finds them; after the body at a point each input's buffer
    holds its block and each output's what the body makes of the two input blocks; the body uses nothing beyond its
    windows and owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

/-! # Region 1: pallas_call 1 at the contents `V` its arrays hold when it is entered -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the support
    window is fetched only when the batch index moves; between fetches its block index is unchanged). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: the whole query block, the whole support block, the left and the right
    half of the augmented block's last axis, the whole weights block. -/
abbrev rq1 : Rect S1x256x1024 := Rect.unit (s := S1x256x1024) ![0, 0, 0] S1x256x1024.size inb_S1x256x1024_S1x256x1024_0_0_0
abbrev rkv1 : Rect S1x1024x1024 := Rect.unit (s := S1x1024x1024) ![0, 0, 0] S1x1024x1024.size inb_S1x1024x1024_S1x1024x1024_0_0_0
abbrev rl1 : Rect S1x256x2048 := Rect.unit (s := S1x256x2048) ![0, 0, 0] S1x256x1024.size inb_S1x256x2048_S1x256x1024_0_0_0
abbrev rr1 : Rect S1x256x2048 := Rect.unit (s := S1x256x2048) ![0, 0, 1024] S1x256x1024.size inb_S1x256x2048_S1x256x1024_0_0_1024

/-- The augmented block after the body: the query block on the left half, the task embedding on the right half
    (the two stores as pieces, the later first). -/
def out1_2 (x0 : Vec F S1x256x1024 .f32) (x1 : Vec F S1x1024x1024 .f32) : Vec F S1x256x2048 .f32 :=
  View.canon [⟨rr1, k1_pay2 (k1_pay7 (View.ld x0 rq1) (View.ld x1 rkv1))⟩, ⟨rl1, k1_pay1 (k1_pay4 (View.ld x0 rq1))⟩]
/-- The weights block after the body: the softmax weights, stored whole. -/
def out1_3 (x0 : Vec F S1x256x1024 .f32) (x1 : Vec F S1x1024x1024 .f32) : Vec F S1x256x1024 .f32 :=
  View.canon [⟨rq1, k1_pay3 (k1_pay6 (View.ld x0 rq1) (View.ld x1 rkv1))⟩]

/-- The two half stores tile the augmented block; the one store covers the weights block. -/
theorem cover1_2 (p0 p1 : Vec F S1x256x1024 .f32) (y : S1x256x2048.Idx) :
    ∃ pc ∈ ([⟨rr1, p0⟩, ⟨rl1, p1⟩] : List (View.Piece (Elt F) S1x256x2048 .f32)), y ∈ pc.1.set :=
  View.cover_of_tiled [⟨rr1, p0⟩, ⟨rl1, p1⟩] S1x256x1024.size (by rfl) y
theorem cover1_3 (p0 : Vec F S1x256x1024 .f32) (y : S1x256x1024.Idx) :
    ∃ pc ∈ ([⟨rq1, p0⟩] : List (View.Piece (Elt F) S1x256x1024 .f32)), y ∈ pc.1.set :=
  View.cover_of_tiled [⟨rq1, p0⟩] S1x256x1024.size (by rfl) y

set_option maxHeartbeats 4000000 in
/-- The body on whole staging buffers — the inputs' at contents `x0`, `x1`, the outputs' at anything — runs to its end
    leaving the inputs as they were and the outputs at `out1_2`, `out1_3` of the inputs. -/
theorem sound_kernel1 (c : Dev nD) (E : Set ℕ) (i : grid1.Coords)
    (arg2 : Memref sig .tc .vmem S1x256x1024 .f32) (harg2 : arg2.IsWhole) (arg3 : Memref sig .tc .vmem S1x1024x1024 .f32) (harg3 : arg3.IsWhole)
    (arg4 : Memref sig .tc .vmem S1x256x2048 .f32) (harg4 : arg4.IsWhole) (arg5 : Memref sig .tc .vmem S1x256x1024 .f32) (harg5 : arg5.IsWhole)
    (x0 : Vec F S1x256x1024 .f32) (x1 : Vec F S1x1024x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out1_2 x0 x1) ∗ owns (c : Thread nD τ) arg5 fullShare (out1_3 x0 x1)) -∗ K ⟨⟩))
      ⊢ wp frame (wpE (defs₀ (F := F)) Variants.none c none) E (cc1__cos_attn_kernel i arg2 harg2 arg3 harg3 arg4 harg4 arg5 harg5) K := by
  simp only [cc1__cos_attn_kernel_eq_skeleton]; unfold cc1__cos_attn_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _)
  iexists _; isplitr
  swap; · iexact H3
  ipureintro
  exact View.read_writes_eq_canon _ _ _ (cover1_3 _)

/-- The proof data of pipeline 1: the arrays as the region finds them; after the body at a point each input's buffer
    holds its block and each output's what the body makes of the two input blocks; the body uses nothing beyond its
    windows and owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q w := match w with
    | ⟨0, _⟩ => fullShare
    | ⟨1, _⟩ => fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Regions
end Cert.Kernel.Run
end
-- ==== Proof.KernelRun.lean ====
/-
  The kernel program's two pallas_calls in sequence, for any float instance: every execution terminates without
  fault, the four argument arrays end as launched, and each result array ends at what its call's write-backs leave
  (block by block the body's outputs at the blocks of the arrays as that call found them).

  Between the calls a core holds every unscoped buffer whole. The first call reads the support array through BOTH of
  its input windows: at its entry the array's ownership is split into two halves, one per window, and the halves
  are joined again at its exit; the second call's four windows are on four distinct arrays.
-/
import proofs.«109901_j17076789968986_1_alg».proof.Proof.KernelBody

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions

end Regions

/-! # The two calls in sequence

Between the calls a core holds every unscoped buffer whole. At launch they hold the launch memory; the first call
changes only its two result arrays, the second only its own two. -/

/-- Core `c`'s unscoped buffers at launch. -/
abbrev W0 : Dev nD → Valuation τ sig (Elt F) := fun c b => m (c, b)
abbrev V0 : (c : Dev nD) → (b : Ref sig .tc) → Buf (Elt F) ((c : Thread nD τ).loc b) := fun c b => W0 m c b

/-- What the first call's write-backs leave in its augmented array and in its weights array. -/
def res0_aug (c : Dev nD) : Buf (Elt F) ((c : Thread nD τ).loc main_v0_0) := (dat0 (V0 m) c).arrAt 2 cfg0.N
def res0_g (c : Dev nD) : Buf (Elt F) ((c : Thread nD τ).loc main_v0_1) := (dat0 (V0 m) c).arrAt 3 cfg0.N

/-- The buffers after the first call. -/
abbrev W1 (c : Dev nD) : Valuation τ sig (Elt F) :=
  Function.update (Function.update (W0 m c) main_v0_0 (res0_aug m c)) main_v0_1 (res0_g m c)
abbrev V1 : (c : Dev nD) → (b : Ref sig .tc) → Buf (Elt F) ((c : Thread nD τ).loc b) := fun c b => W1 m c b

/-- What the second call's write-backs leave in its two result arrays. -/
def res1_aug (c : Dev nD) : Buf (Elt F) ((c : Thread nD τ).loc main_v1_0) := (dat1 (V1 m) c).arrAt 2 cfg1.N
def res1_g (c : Dev nD) : Buf (Elt F) ((c : Thread nD τ).loc main_v1_1) := (dat1 (V1 m) c).arrAt 3 cfg1.N

/-- The buffers after the second call. -/
abbrev W2 (c : Dev nD) : Valuation τ sig (Elt F) :=
  Function.update (Function.update (W1 m c) main_v1_0 (res1_aug m c)) main_v1_1 (res1_g m c)
abbrev V2 : (c : Dev nD) → (b : Ref sig .tc) → Buf (Elt F) ((c : Thread nD τ).loc b) := fun c b => W2 m c b

/-- A call leaves every buffer but its two result arrays as it found it. -/
theorem W1_of (c : Dev nD) (r : Ref sig .tc) (h : r ∉ ([main_v0_0, main_v0_1] : List (Ref sig .tc))) : W1 m c r = W0 m c r := by
  simp only [W1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem W2_of (c : Dev nD) (r : Ref sig .tc) (h : r ∉ ([main_v1_0, main_v1_1] : List (Ref sig .tc))) : W2 m c r = W1 m c r := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem W1_aug (c : Dev nD) : W1 m c main_v0_0 = res0_aug m c := by
  simp only [W1, Function.update_of_ne (StableHlo.devRef_ne_of_ne (by decide : main_v0_0 ≠ main_v0_1) : (Proc.devRef .tc main_v0_0 : DevRef τ sig) ≠ Proc.devRef .tc main_v0_1), Function.update_self]
theorem W1_g (c : Dev nD) : W1 m c main_v0_1 = res0_g m c := by
  simp only [W1, Function.update_self]
theorem W2_aug (c : Dev nD) : W2 m c main_v1_0 = res1_aug m c := by
  simp only [W2, Function.update_of_ne (StableHlo.devRef_ne_of_ne (by decide : main_v1_0 ≠ main_v1_1) : (Proc.devRef .tc main_v1_0 : DevRef τ sig) ≠ Proc.devRef .tc main_v1_1), Function.update_self]
theorem W2_g (c : Dev nD) : W2 m c main_v1_1 = res1_g m c := by
  simp only [W2, Function.update_self]

/-- No pallas_call has a prefetched table. -/
abbrev adm : (p : Fin 2) → (pcfgs (F := F) p).Adm := fun p => (cfgs p).toPCfg_adm
/-- Each pipeline's proof data at the contents its call is entered with. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-- The distinct buffers behind the first call's windows: the support array (read through both input windows) and the
    two result arrays. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0_0) ↦{fullShare} V main_v0_0) ∗ (((c : Thread nD τ).loc main_v0_1) ↦{fullShare} V main_v0_1)) := by
  unfold Pipeline.arrBufs
  exact bigSep_eq_bigSepL_of_eq [main_arg0, main_v0_0, main_v0_1] (by decide) (by decide) _

/-- The first call's windowed arrays one by one: the support array twice (once per input window, each at its
    window's share), then the two result arrays. -/
theorem arrays0_eq (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_arg0) ↦{dat.share 0} G 0) ∗ (((c : Thread nD τ).loc main_arg0) ↦{dat.share 1} G 1)
          ∗ (((c : Thread nD τ).loc main_v0_0) ↦{dat.share 2} G 2) ∗ (((c : Thread nD τ).loc main_v0_1) ↦{dat.share 3} G 3)) := by
  unfold Pipeline.Dat.arrays
  rw [bigSep_W0]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ]

/-! ## The calls as segments of @main -/

set_option backward.isDefEq.respectTransparency.types false in
/-- The first call: entered from every unscoped buffer at the launch contents, left with its two result arrays at
    what its write-backs leave. The support array's ownership is halved between the two input windows at the entry
    and made whole again at the exit. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (StableHlo.held (c : Thread nD τ) (Pipeline.ucRefs τ sig) (W0 m c) : sProp 𝕄)
        = iprop((Pipeline.arrBufs spec0 c (V0 m c) : sProp 𝕄) ∗ Pipeline.unscopedRest spec0 c (V0 m c)) := by
      rw [← Pipeline.unscopedBufs_held c (W0 m c)]
      exact Pipeline.unscopedBufs_split₀ cfgs 0 winFacts₀0.arr_unscoped c (V0 m c)
    rw [hsplit, arrBufs0_eq, arrays0_eq]
    iintro ⟨⟨⟨⟨Ha, H2, H3⟩, Hrest⟩, Hp, HO⟩, -, -⟩
    ihave Ha' := (pointsTo_share (PosShare.mem_left_op_right fullShare)).1 $$ Ha
    icases Ha' with ⟨Ha0, Ha1⟩
    imodintro
    isplitl [Ha0 Ha1 H2 H3]
    · isplitl [Ha0]; · iexact Ha0
      isplitl [Ha1]; · iexact Ha1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (StableHlo.held (c : Thread nD τ) (Pipeline.ucRefs τ sig) (W1 m c) : sProp 𝕄)
        = iprop((Pipeline.arrBufs spec0 c (V1 m c) : sProp 𝕄) ∗ Pipeline.unscopedRest spec0 c (V1 m c)) := by
      rw [← Pipeline.unscopedBufs_held c (W1 m c)]
      exact Pipeline.unscopedBufs_split₀ cfgs 0 winFacts₀0.arr_unscoped c (V1 m c)
    have hrest : (Pipeline.unscopedRest (Ix := Unit) (Name := ℕ) (U := UR sig nD τ) (Lvl := ℕ) spec0 c (V1 m c) : sProp 𝕄)
        = Pipeline.unscopedRest spec0 c (V0 m c) := by
      rw [unscopedRest0_eq, unscopedRest0_eq]
      rw [show V1 m c main_arg1 = V0 m c main_arg1 from W1_of m c main_arg1 (by decide),
        show V1 m c main_arg2 = V0 m c main_arg2 from W1_of m c main_arg2 (by decide),
        show V1 m c main_arg3 = V0 m c main_arg3 from W1_of m c main_arg3 (by decide),
        show V1 m c main_v1_0 = V0 m c main_v1_0 from W1_of m c main_v1_0 (by decide),
        show V1 m c main_v1_1 = V0 m c main_v1_1 from W1_of m c main_v1_1 (by decide)]
    have h0 : (pdats m 0 c).arrAt 0 (Pipeline.pin (pcfgs (F := F)) adm 0).N = V1 m c main_arg0 :=
      (((pdats m 0 c).arrAt_in 0 rfl _).trans (A_eq0 (V0 m) c 0)).trans (W1_of m c main_arg0 (by decide)).symm
    have h1 : (pdats m 0 c).arrAt 1 (Pipeline.pin (pcfgs (F := F)) adm 0).N = V1 m c main_arg0 :=
      (((pdats m 0 c).arrAt_in 1 rfl _).trans (A_eq0 (V0 m) c 1)).trans (W1_of m c main_arg0 (by decide)).symm
    have h2 : (pdats m 0 c).arrAt 2 (Pipeline.pin (pcfgs (F := F)) adm 0).N = V1 m c main_v0_0 := (W1_aug m c).symm
    have h3 : (pdats m 0 c).arrAt 3 (Pipeline.pin (pcfgs (F := F)) adm 0).N = V1 m c main_v0_1 := (W1_g m c).symm
    rw [hjoin, hrest, arrBufs0_eq, arrays0_eq, h0, h1, h2, h3]
    iintro ⟨⟨Ha0, Ha1, H2, H3⟩, HO, HY, Hrest⟩
    imodintro
    isplitl [Ha0 Ha1 H2 H3 Hrest]
    · isplitl [Ha0 Ha1 H2 H3]
      · isplitl [Ha0 Ha1]
        · iapply (pointsTo_share (PosShare.mem_left_op_right fullShare)).2
          isplitl [Ha0]; · iexact Ha0
          iexact Ha1
        isplitl [H2]; · iexact H2
        iexact H3
      iexact Hrest
    isplitl [HY]; · iexact HY
    unfold Pipeline.Dat.owesAt Pipeline.owesWithin
    icases HO with ⟨%W, -, HO⟩; iexists W; iexact HO

/-- At the second call's exit each of its arrays holds what the pipeline leaves and every other buffer what it held
    at the call's entry. -/
theorem hF1 (c : Dev nD) (w : Fin cfg1.W) : (dat1 (V1 m) c).arrAt w cfg1.N = V2 m c (Pipeline.arrRef spec1 w) :=
  match w with
  | ⟨0, _⟩ => (((dat1 (V1 m) c).arrAt_in 0 rfl _).trans (A_eq1 (V1 m) c 0)).trans (W2_of m c main_arg1 (by decide)).symm
  | ⟨1, _⟩ => (((dat1 (V1 m) c).arrAt_in 1 rfl _).trans (A_eq1 (V1 m) c 1)).trans (W2_of m c main_arg0 (by decide)).symm
  | ⟨2, _⟩ => (W2_aug m c).symm
  | ⟨3, _⟩ => (W2_g m c).symm
theorem hrest1 (c : Dev nD) : ∀ b, b ∉ Finset.univ.image (Pipeline.arrRef spec1) → V2 m c b = V1 m c b := fun b hb =>
  W2_of m c b (fun h => by
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h List.not_mem_nil)

set_option backward.isDefEq.respectTransparency.types false in
/-- The second call: its four windows are on four distinct arrays, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun w => by dsimp only [pdats, dat1]; split <;> rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => by dsimp only [pdats, dat1]; split <;> rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's two segments. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting;
    the four result arrays end at what their calls' write-backs leave and the four arguments as launched. -/
theorem run_main : θ_run defs (onTc (τ := τ) (main (F := F))) ⟨m, fun _ => 0, ρ⟩ (fun r => ∀ c : Dev nD,
      r.2.mem ((c.tc : Thread nD τ).loc main_v0_0) = res0_aug m c
      ∧ r.2.mem ((c.tc : Thread nD τ).loc main_v1_0) = res1_aug m c
      ∧ r.2.mem ((c.tc : Thread nD τ).loc main_v0_1) = res0_g m c
      ∧ r.2.mem ((c.tc : Thread nD τ).loc main_v1_1) = res1_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v0_0 (by decide))).trans ((W2_of m c main_v0_0 (by decide)).trans (W1_aug m c)),
       (h c _ (mem_uc main_v1_0 (by decide))).trans (W2_aug m c),
       (h c _ (mem_uc main_v0_1 (by decide))).trans ((W2_of m c main_v0_1 (by decide)).trans (W1_g m c)),
       (h c _ (mem_uc main_v1_1 (by decide))).trans (W2_g m c),
       (h c _ (mem_uc main_arg0 (by decide))).trans ((W2_of m c main_arg0 (by decide)).trans (W1_of m c main_arg0 (by decide))),
       (h c _ (mem_uc main_arg1 (by decide))).trans ((W2_of m c main_arg1 (by decide)).trans (W1_of m c main_arg1 (by decide))),
       (h c _ (mem_uc main_arg2 (by decide))).trans ((W2_of m c main_arg2 (by decide)).trans (W1_of m c main_arg2 (by decide))),
       (h c _ (mem_uc main_arg3 (by decide))).trans ((W2_of m c main_arg3 (by decide)).trans (W1_of m c main_arg3 (by decide)))⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2.2.2) (run_main m ρ)

end Cert.Kernel.Run
end
-- ==== Proof.Spec.lean ====
/-
  Cosine-similarity attention of one query row against 1024 support rows, over the extended reals.

  A row is normalised by its Euclidean norm clamped below at a small positive constant; the cosine of the query row
  with support row `j` is the inner product of the two normalised rows; the attention weights are the softmax of the
  cosines over `j` (the exponentials of the cosines less their maximum, over their sum); the task embedding is the
  weighted sum of the RAW support rows. Both programs compute exactly these functions of the same rows: the kernel
  block by block, the reference on whole arrays.
-/
import Idealize.ShloMosaic.PureOps.Ideal
import Idealize.ShloMosaic.Lib.ValueIdx

noncomputable section

namespace Cert.CosAttn

open Idealize.ShloMosaic

/-- The clamp under the norm (the binary32 value nearest 1e-8) and the softmax's starting maximum (−∞). -/
abbrev epsW : EReal := Ideal.ofBits .f32 0x322BCC77#32
abbrev negInfW : EReal := Ideal.ofBits .f32 0xFF800000#32

/-- A row's Euclidean norm, clamped below. -/
def nrm (x : Fin 1024 → EReal) : EReal := max (Ideal.sqrt (∑ k : Fin 1024, x k * x k)) epsW

/-- The cosine of the query row `q` with support row `j`. -/
def cosv (q : Fin 1024 → EReal) (kv : Fin 1024 → Fin 1024 → EReal) (j : Fin 1024) : EReal :=
  ∑ k : Fin 1024, Ideal.div (q k) (nrm q) * Ideal.div (kv j k) (nrm (kv j))

/-- The largest cosine of the row (started from −∞, and joined with −∞ once more, as both programs do). -/
def rowMax (q : Fin 1024 → EReal) (kv : Fin 1024 → Fin 1024 → EReal) : EReal :=
  max negInfW ((Finset.univ : Finset (Fin 1024)).fold max negInfW (cosv q kv))

/-- The exponential of a cosine less the row's maximum. -/
def expv (q : Fin 1024 → EReal) (kv : Fin 1024 → Fin 1024 → EReal) (j : Fin 1024) : EReal :=
  Ideal.exp (cosv q kv j - rowMax q kv)

/-- The attention weight of support row `j`: the softmax of the cosines. -/
def weights (q : Fin 1024 → EReal) (kv : Fin 1024 → Fin 1024 → EReal) (j : Fin 1024) : EReal :=
  Ideal.div (expv q kv j) (∑ j' : Fin 1024, expv q kv j')

/-- The task embedding at feature `d`: the weighted sum of the raw support rows. -/
def task (q : Fin 1024 → EReal) (kv : Fin 1024 → Fin 1024 → EReal) (d : Fin 1024) : EReal :=
  ∑ j : Fin 1024, weights q kv j * kv j d

end Cert.CosAttn

end
-- ==== Proof.Reference.lean ====
/-
  The reference program's attention weights over the support rows, read index by index as functions of the support
  array: each row's clamped Euclidean norm, the cosines as inner products of normalised rows, the row's largest cosine
  as a maximum over the support rows started from −∞, the exponentials and their sum, and the quotient.
-/
import proofs.«109901_j17076789968986_1_alg».proof.Proof.ReferenceRead
import proofs.«109901_j17076789968986_1_alg».proof.Proof.Spec
import Idealize.ShloMosaic.Lib.ValueIdx
import Idealize.ShloMosaic.PureOps.Ideal.Laws

noncomputable section

namespace Cert.CosAttn

open Idealize.ShloMosaic Cert.ReferenceIdeal Cert.ReferenceIdeal.Gen Cert.ReferenceIdeal.Read ValueIdx

variable (a0 : (⟨S8x1024x1024, .f32⟩ : BufTy).Contents (Elt Ideal))

/-! ### The composed index maps of the support side, at an index given by its coordinates -/

theorem idx_sq_support (b : Fin 8) (r : Fin 1024) (k : Fin 1024) :
    idx_main_v1 (idx_main_v2 (ix3 b r (0 : Fin 1))) k = ix3 b r k :=
  funext fun a => Fin.ext (by match a with | ⟨0, _⟩ => rfl | ⟨1, _⟩ => rfl | ⟨2, _⟩ => rfl)

theorem idx_col_support (b : Fin 8) (r : Fin 1024) (k : Fin 1024) :
    idx_main_v6 (ix3 b r k) = ix3 b r (0 : Fin 1) :=
  funext fun a => Fin.ext (by match a with | ⟨0, _⟩ => rfl | ⟨1, _⟩ => rfl | ⟨2, _⟩ => rfl)

/-- A support row's clamped norm. -/
theorem ref_nrm_support (b : Fin 8) (r : Fin 1024) :
    val_main_v5 (F := Ideal) a0 (ix3 b r (0 : Fin 1)) = nrm (fun k => a0 (ix3 b r k)) := by
  rw [val_main_v5_apply, val_main_v3_apply, val_main_v2_apply, val_main_v1_apply, val_main_v4_apply,
    val_main_cst_0_apply, val_main_cst_apply]
  simp only [val_main_v0_apply, idx_sq_support, Ideal.maximumf_def, Ideal.hostUnary_sqrt_def, Ideal.ofBits_def,
    Ideal.mulf_def, Ideal.ofBits_zero_f32, zero_add]
  rfl

/-- A normalised support row. -/
theorem ref_unit_support (b : Fin 8) (r : Fin 1024) (k : Fin 1024) :
    val_main_v7 (F := Ideal) a0 (ix3 b r k) = Ideal.div (a0 (ix3 b r k)) (nrm (fun k' => a0 (ix3 b r k'))) := by
  rw [val_main_v7_apply, val_main_v6_apply, idx_col_support, ref_nrm_support, Ideal.hostDivf_def]

/-! ### The cosines -/

theorem lidx_cos_support (b : Fin 8) (r j : Fin 1024) (k : Fin 1024) :
    lidx_main_v16 (ix3 b r j) k = ix3 b r k :=
  funext fun a => Fin.ext (by match a with | ⟨0, _⟩ => rfl | ⟨1, _⟩ => rfl | ⟨2, _⟩ => rfl)

theorem ridx_cos_support (b : Fin 8) (r j : Fin 1024) (k : Fin 1024) :
    ridx_main_v16 (ix3 b r j) k = ix3 b j k :=
  funext fun a => Fin.ext (by match a with | ⟨0, _⟩ => rfl | ⟨1, _⟩ => rfl | ⟨2, _⟩ => rfl)

/-- The cosine of support row `r` with support row `j`: the inner product of the two normalised rows. -/
theorem ref_cos_support (b : Fin 8) (r j : Fin 1024) :
    val_main_v16 (F := Ideal) a0 (ix3 b r j)
      = cosv (fun k => a0 (ix3 b r k)) (fun j' k => a0 (ix3 b j' k)) j := by
  rw [val_main_v16_apply]
  simp only [lidx_cos_support, ridx_cos_support, ref_unit_support]
  rfl

/-! ### The row's largest cosine -/

/-- The maximum over the support rows, started from −∞, is the fold of `max` over the row's cosines. -/
theorem ref_max_support (b : Fin 8) (r : Fin 1024) :
    val_main_v18 (F := Ideal) a0 (ix2 b r)
      = (Finset.univ : Finset (Fin 1024)).fold max negInfW
          (cosv (fun k => a0 (ix3 b r k)) (fun j' k => a0 (ix3 b j' k))) := by
  have hc : ∀ j : Fin 1024, val_main_v16 (F := Ideal) a0 (ix3 b r j)
      = cosv (fun k => a0 (ix3 b r k)) (fun j' k => a0 (ix3 b j' k)) j := ref_cos_support a0 b r
  unfold val_main_v18
  generalize val_main_v16 (F := Ideal) a0 = y at hc ⊢
  have hR : S8x1024x1024.Reduces [2] S8x1024 := by decide
  have h := Host.reduce_eq_fold_single (FloatOps.maximumf (F := Ideal) (φ := .f32)) y (val_main_cst_3 (F := Ideal))
    reducesTo_S8x1024x1024_S8x1024_d2 hR h_S_ (ix2 b r)
  refine h.trans ?_
  refine Finset.fold_congr (fun j _ => ?_)
  exact (congrArg y
    (funext fun a => Fin.ext (by match a with | ⟨0, _⟩ => rfl | ⟨1, _⟩ => rfl | ⟨2, _⟩ => rfl))).trans (hc j)

theorem idx_max_support (b : Fin 8) (r j : Fin 1024) :
    idx_main_v21 (idx_main_v22 (ix3 b r j)) = ix2 b r :=
  funext fun a => Fin.ext (by match a with | ⟨0, _⟩ => rfl | ⟨1, _⟩ => rfl)

/-- The row's maximum as the softmax subtracts it: joined with −∞ once more and spread along the row. -/
theorem ref_rowMax_support (b : Fin 8) (r j : Fin 1024) :
    val_main_v22 (F := Ideal) a0 (ix3 b r j)
      = rowMax (fun k => a0 (ix3 b r k)) (fun j' k => a0 (ix3 b j' k)) := by
  rw [val_main_v22_apply, val_main_v21_apply, idx_max_support, val_main_v20_apply, val_main_v19_apply,
    val_main_cst_4_apply, ref_max_support, Ideal.maximumf_def, Ideal.ofBits_def]
  rfl

/-! ### The exponentials, their sum, and the weights -/

/-- The exponential of a cosine less the row's maximum. -/
theorem ref_exp_support (b : Fin 8) (r j : Fin 1024) :
    val_main_v24 (F := Ideal) a0 (ix3 b r j)
      = expv (fun k => a0 (ix3 b r k)) (fun j' k => a0 (ix3 b j' k)) j := by
  rw [val_main_v24_apply, val_main_v23_apply, ref_cos_support, ref_rowMax_support, Ideal.hostUnary_exp_def,
    Ideal.subf_def]
  rfl

theorem idx_sum_support (b : Fin 8) (r j : Fin 1024) (k : Fin 1024) :
    idx_main_v25 (idx_main_v26 (idx_main_v27 (ix3 b r j))) k = ix3 b r k :=
  funext fun a => Fin.ext (by match a with | ⟨0, _⟩ => rfl | ⟨1, _⟩ => rfl | ⟨2, _⟩ => rfl)

/-- The sum of the row's exponentials, spread along the row. -/
theorem ref_sum_support (b : Fin 8) (r j : Fin 1024) :
    val_main_v27 (F := Ideal) a0 (ix3 b r j)
      = ∑ j' : Fin 1024, expv (fun k => a0 (ix3 b r k)) (fun j'' k => a0 (ix3 b j'' k)) j' := by
  rw [val_main_v27_apply, val_main_v26_apply, val_main_v25_apply, val_main_cst_5_apply]
  simp only [idx_sum_support, ref_exp_support, Ideal.ofBits_def, Ideal.ofBits_zero_f32, zero_add]

/-- The reference's attention weights over the support rows are the softmax of the cosines. -/
theorem ref_weights_support (b : Fin 8) (j : Fin 1024) (r : Fin 1024) :
    val_main_v28 (F := Ideal) a0 (ix3 b r j)
      = weights (fun k => a0 (ix3 b r k)) (fun j' k => a0 (ix3 b j' k)) j := by
  rw [val_main_v28_apply, ref_exp_support, ref_sum_support, Ideal.hostDivf_def]
  rfl

end Cert.CosAttn

end
-- ==== Proof.ReferenceQuery.lean ====
/-
  The reference program's attention weights of the query rows over the support rows, read index by index as functions
  of the two arrays: the query row's clamped Euclidean norm, the cosines as inner products of the normalised query row
  with the normalised support rows, the row's largest cosine as a maximum over the support rows started from −∞, the
  exponentials and their sum, and the quotient.
-/
import proofs.«109901_j17076789968986_1_alg».proof.Proof.Reference

noncomputable section

namespace Cert.CosAttn

open Idealize.ShloMosaic Cert.ReferenceIdeal Cert.ReferenceIdeal.Gen Cert.ReferenceIdeal.Read ValueIdx

variable (a0 : (⟨S8x1024x1024, .f32⟩ : BufTy).Contents (Elt Ideal))
variable (a1 : (⟨S8x2048x1024, .f32⟩ : BufTy).Contents (Elt Ideal))

/-! ### The composed index maps of the query side, at an index given by its coordinates -/

theorem idx_sq_query (b : Fin 8) (r : Fin 2048) (k : Fin 1024) :
    idx_main_v9 (idx_main_v10 (ix3 b r (0 : Fin 1))) k = ix3 b r k :=
  funext fun a => Fin.ext (by match a with | ⟨0, _⟩ => rfl | ⟨1, _⟩ => rfl | ⟨2, _⟩ => rfl)

theorem idx_col_query (b : Fin 8) (r : Fin 2048) (k : Fin 1024) :
    idx_main_v14 (ix3 b r k) = ix3 b r (0 : Fin 1) :=
  funext fun a => Fin.ext (by match a with | ⟨0, _⟩ => rfl | ⟨1, _⟩ => rfl | ⟨2, _⟩ => rfl)

/-- A query row's clamped norm. -/
theorem ref_nrm_query (b : Fin 8) (r : Fin 2048) :
    val_main_v13 (F := Ideal) a1 (ix3 b r (0 : Fin 1)) = nrm (fun k => a1 (ix3 b r k)) := by
  rw [val_main_v13_apply, val_main_v11_apply, val_main_v10_apply, val_main_v9_apply, val_main_v12_apply,
    val_main_cst_2_apply, val_main_cst_1_apply]
  simp only [val_main_v8_apply, idx_sq_query, Ideal.maximumf_def, Ideal.hostUnary_sqrt_def, Ideal.ofBits_def,
    Ideal.mulf_def, Ideal.ofBits_zero_f32, zero_add]
  rfl

/-- A normalised query row. -/
theorem ref_unit_query (b : Fin 8) (r : Fin 2048) (k : Fin 1024) :
    val_main_v15 (F := Ideal) a1 (ix3 b r k) = Ideal.div (a1 (ix3 b r k)) (nrm (fun k' => a1 (ix3 b r k'))) := by
  rw [val_main_v15_apply, val_main_v14_apply, idx_col_query, ref_nrm_query, Ideal.hostDivf_def]

/-! ### The cosines -/

theorem lidx_cos_query (b : Fin 8) (r : Fin 2048) (j : Fin 1024) (k : Fin 1024) :
    lidx_main_v17 (ix3 b r j) k = ix3 b r k :=
  funext fun a => Fin.ext (by match a with | ⟨0, _⟩ => rfl | ⟨1, _⟩ => rfl | ⟨2, _⟩ => rfl)

theorem ridx_cos_query (b : Fin 8) (r : Fin 2048) (j : Fin 1024) (k : Fin 1024) :
    ridx_main_v17 (ix3 b r j) k = ix3 b j k :=
  funext fun a => Fin.ext (by match a with | ⟨0, _⟩ => rfl | ⟨1, _⟩ => rfl | ⟨2, _⟩ => rfl)

/-- The cosine of query row `r` with support row `j`: the inner product of the two normalised rows. -/
theorem ref_cos_query (b : Fin 8) (r : Fin 2048) (j : Fin 1024) :
    val_main_v17 (F := Ideal) a0 a1 (ix3 b r j)
      = cosv (fun k => a1 (ix3 b r k)) (fun j' k => a0 (ix3 b j' k)) j := by
  rw [val_main_v17_apply]
  simp only [lidx_cos_query, ridx_cos_query, ref_unit_query, ref_unit_support]
  rfl

/-! ### The row's largest cosine -/

/-- The maximum over the support rows, started from −∞, is the fold of `max` over the row's cosines. -/
theorem ref_max_query (b : Fin 8) (r : Fin 2048) :
    val_main_v29 (F := Ideal) a0 a1 (ix2 b r)
      = (Finset.univ : Finset (Fin 1024)).fold max negInfW
          (cosv (fun k => a1 (ix3 b r k)) (fun j' k => a0 (ix3 b j' k))) := by
  have hc : ∀ j : Fin 1024, val_main_v17 (F := Ideal) a0 a1 (ix3 b r j)
      = cosv (fun k => a1 (ix3 b r k)) (fun j' k => a0 (ix3 b j' k)) j := ref_cos_query a0 a1 b r
  unfold val_main_v29
  generalize val_main_v17 (F := Ideal) a0 a1 = y at hc ⊢
  have hR : S8x2048x1024.Reduces [2] S8x2048 := by decide
  have h := Host.reduce_eq_fold_single (FloatOps.maximumf (F := Ideal) (φ := .f32)) y (val_main_cst_6 (F := Ideal))
    reducesTo_S8x2048x1024_S8x2048_d2 hR h_S_ (ix2 b r)
  refine h.trans ?_
  refine Finset.fold_congr (fun j _ => ?_)
  exact (congrArg y
    (funext fun a => Fin.ext (by match a with | ⟨0, _⟩ => rfl | ⟨1, _⟩ => rfl | ⟨2, _⟩ => rfl))).trans (hc j)

theorem idx_max_query (b : Fin 8) (r : Fin 2048) (j : Fin 1024) :
    idx_main_v32 (idx_main_v33 (ix3 b r j)) = ix2 b r :=
  funext fun a => Fin.ext (by match a with | ⟨0, _⟩ => rfl | ⟨1, _⟩ => rfl)

/-- The row's maximum as the softmax subtracts it: joined with −∞ once more and spread along the row. -/
theorem ref_rowMax_query (b : Fin 8) (r : Fin 2048) (j : Fin 1024) :
    val_main_v33 (F := Ideal) a0 a1 (ix3 b r j)
      = rowMax (fun k => a1 (ix3 b r k)) (fun j' k => a0 (ix3 b j' k)) := by
  rw [val_main_v33_apply, val_main_v32_apply, idx_max_query, val_main_v31_apply, val_main_v30_apply,
    val_main_cst_7_apply, ref_max_query, Ideal.maximumf_def, Ideal.ofBits_def]
  rfl

/-! ### The exponentials, their sum, and the weights -/

/-- The exponential of a cosine less the row's maximum. -/
theorem ref_exp_query (b : Fin 8) (r : Fin 2048) (j : Fin 1024) :
    val_main_v35 (F := Ideal) a0 a1 (ix3 b r j)
      = expv (fun k => a1 (ix3 b r k)) (fun j' k => a0 (ix3 b j' k)) j := by
  rw [val_main_v35_apply, val_main_v34_apply, ref_cos_query, ref_rowMax_query, Ideal.hostUnary_exp_def,
    Ideal.subf_def]
  rfl

theorem idx_sum_query (b : Fin 8) (r : Fin 2048) (j : Fin 1024) (k : Fin 1024) :
    idx_main_v36 (idx_main_v37 (idx_main_v38 (ix3 b r j))) k = ix3 b r k :=
  funext fun a => Fin.ext (by match a with | ⟨0, _⟩ => rfl | ⟨1, _⟩ => rfl | ⟨2, _⟩ => rfl)

/-- The sum of the row's exponentials, spread along the row. -/
theorem ref_sum_query (b : Fin 8) (r : Fin 2048) (j : Fin 1024) :
    val_main_v38 (F := Ideal) a0 a1 (ix3 b r j)
      = ∑ j' : Fin 1024, expv (fun k => a1 (ix3 b r k)) (fun j'' k => a0 (ix3 b j'' k)) j' := by
  rw [val_main_v38_apply, val_main_v37_apply, val_main_v36_apply, val_main_cst_8_apply]
  simp only [idx_sum_query, ref_exp_query, Ideal.ofBits_def, Ideal.ofBits_zero_f32, zero_add]

/-- The reference's attention weights of the query rows are the softmax of the cosines. -/
theorem ref_weights_query (b : Fin 8) (j : Fin 1024) (r : Fin 2048) :
    val_main_v39 (F := Ideal) a0 a1 (ix3 b r j)
      = weights (fun k => a1 (ix3 b r k)) (fun j' k => a0 (ix3 b j' k)) j := by
  rw [val_main_v39_apply, ref_exp_query, ref_sum_query, Ideal.hostDivf_def]
  rfl

end Cert.CosAttn

end
-- ==== Proof.ReferenceAug.lean ====
/-
  The reference program's two augmented results, read index by index: along the last axis the first 1024 entries of a
  row are the row itself, and the next 1024 are the row's task embedding, the sum over the support rows of the row's
  attention weight times the raw support row.
-/
import proofs.«109901_j17076789968986_1_alg».proof.Proof.ReferenceQuery
import Idealize.ShloMosaic.Lib.Pipeline.Value

noncomputable section

namespace Cert.CosAttn

open Idealize.ShloMosaic Cert.ReferenceIdeal Cert.ReferenceIdeal.Gen Cert.ReferenceIdeal.Read ValueIdx

variable (a0 : (⟨S8x1024x1024, .f32⟩ : BufTy).Contents (Elt Ideal))
variable (a1 : (⟨S8x2048x1024, .f32⟩ : BufTy).Contents (Elt Ideal))

/-! ### The task embeddings -/

theorem lidx_task_support (b : Fin 8) (r d : Fin 1024) (k : Fin 1024) :
    lidx_main_v40 (ix3 b r d) k = ix3 b r k :=
  funext fun a => Fin.ext (by match a with | ⟨0, _⟩ => rfl | ⟨1, _⟩ => rfl | ⟨2, _⟩ => rfl)

theorem ridx_task_support (b : Fin 8) (r d : Fin 1024) (k : Fin 1024) :
    ridx_main_v40 (ix3 b r d) k = ix3 b k d :=
  funext fun a => Fin.ext (by match a with | ⟨0, _⟩ => rfl | ⟨1, _⟩ => rfl | ⟨2, _⟩ => rfl)

/-- A support row's task embedding: the weighted sum of the raw support rows. -/
theorem ref_task_support (b : Fin 8) (d : Fin 1024) (r : Fin 1024) :
    val_main_v40 (F := Ideal) a0 (ix3 b r d)
      = task (fun k => a0 (ix3 b r k)) (fun j' k => a0 (ix3 b j' k)) d := by
  rw [val_main_v40_apply]
  simp only [lidx_task_support, ridx_task_support, ref_weights_support]
  rfl

theorem lidx_task_query (b : Fin 8) (r : Fin 2048) (d : Fin 1024) (k : Fin 1024) :
    lidx_main_v41 (ix3 b r d) k = ix3 b r k :=
  funext fun a => Fin.ext (by match a with | ⟨0, _⟩ => rfl | ⟨1, _⟩ => rfl | ⟨2, _⟩ => rfl)

theorem ridx_task_query (b : Fin 8) (r : Fin 2048) (d : Fin 1024) (k : Fin 1024) :
    ridx_main_v41 (ix3 b r d) k = ix3 b k d :=
  funext fun a => Fin.ext (by match a with | ⟨0, _⟩ => rfl | ⟨1, _⟩ => rfl | ⟨2, _⟩ => rfl)

/-- A query row's task embedding: the weighted sum of the raw support rows. -/
theorem ref_task_query (b : Fin 8) (d : Fin 1024) (r : Fin 2048) :
    val_main_v41 (F := Ideal) a0 a1 (ix3 b r d)
      = task (fun k => a1 (ix3 b r k)) (fun j' k => a0 (ix3 b j' k)) d := by
  rw [val_main_v41_apply]
  simp only [lidx_task_query, ridx_task_query, ref_weights_query]
  rfl

/-! ### The concatenations along the last axis -/

/-- The first half of an augmented support row is the support row. -/
theorem ref_aug_support_left (b : Fin 8) (d : Fin 1024) (r : Fin 1024) :
    val_main_v42 (F := Ideal) a0 (ix3 b r (⟨d.val, by omega⟩ : Fin 2048)) = a0 (ix3 b r d) := by
  unfold val_main_v42
  generalize val_main_v40 (F := Ideal) a0 = y
  refine concatenate_pair_apply_left _ a0 y concatenates_S8x1024x1024_S8x1024x1024_S8x1024x2048_d2 _ rfl (ix3 b r d)
    (fun a => ?_)
  match a with | ⟨0, _⟩ => rfl | ⟨1, _⟩ => rfl | ⟨2, _⟩ => rfl

/-- The second half of an augmented support row is the row's task embedding. -/
theorem ref_aug_support_right (b : Fin 8) (d : Fin 1024) (r : Fin 1024) :
    val_main_v42 (F := Ideal) a0 (ix3 b r (⟨1024 + d.val, by omega⟩ : Fin 2048))
      = task (fun k => a0 (ix3 b r k)) (fun j' k => a0 (ix3 b j' k)) d := by
  have ht := ref_task_support a0 b d r
  unfold val_main_v42
  generalize val_main_v40 (F := Ideal) a0 = y at ht ⊢
  refine (concatenate_pair_apply_right _ a0 y concatenates_S8x1024x1024_S8x1024x1024_S8x1024x2048_d2 _ rfl rfl
    (ix3 b r d) (fun a => ?_) ?_).trans ht
  · match a with
    | ⟨0, _⟩ => exact fun _ => rfl
    | ⟨1, _⟩ => exact fun _ => rfl
    | ⟨2, _⟩ => exact fun hne => absurd rfl hne
  · show d.val + 1024 = 1024 + d.val
    omega

/-- The first half of an augmented query row is the query row. -/
theorem ref_aug_query_left (b : Fin 8) (d : Fin 1024) (r : Fin 2048) :
    val_main_v43 (F := Ideal) a0 a1 (ix3 b r (⟨d.val, by omega⟩ : Fin 2048)) = a1 (ix3 b r d) := by
  unfold val_main_v43
  generalize val_main_v41 (F := Ideal) a0 a1 = y
  refine concatenate_pair_apply_left _ a1 y concatenates_S8x2048x1024_S8x2048x1024_S8x2048x2048_d2 _ rfl (ix3 b r d)
    (fun a => ?_)
  match a with | ⟨0, _⟩ => rfl | ⟨1, _⟩ => rfl | ⟨2, _⟩ => rfl

/-- The second half of an augmented query row is the row's task embedding. -/
theorem ref_aug_query_right (b : Fin 8) (d : Fin 1024) (r : Fin 2048) :
    val_main_v43 (F := Ideal) a0 a1 (ix3 b r (⟨1024 + d.val, by omega⟩ : Fin 2048))
      = task (fun k => a1 (ix3 b r k)) (fun j' k => a0 (ix3 b j' k)) d := by
  have ht := ref_task_query a0 a1 b d r
  unfold val_main_v43
  generalize val_main_v41 (F := Ideal) a0 a1 = y at ht ⊢
  refine (concatenate_pair_apply_right _ a1 y concatenates_S8x2048x1024_S8x2048x1024_S8x2048x2048_d2 _ rfl rfl
    (ix3 b r d) (fun a => ?_) ?_).trans ht
  · match a with
    | ⟨0, _⟩ => exact fun _ => rfl
    | ⟨1, _⟩ => exact fun _ => rfl
    | ⟨2, _⟩ => exact fun hne => absurd rfl hne
  · show d.val + 1024 = 1024 + d.val
    omega

end Cert.CosAttn

end
-- ==== Proof.KernelIdealBody.lean ====
/-
  The run of the kernel program's two pallas_calls, for any float instance.

  Each pallas_call is a pipeline over a grid (batch, query-row tile): at a grid point the body reads the query
  tile's block [1,256,1024] and the batch's whole support block [1,1024,1024] — both pallas_calls read the support
  array, the first one reads it through BOTH input windows — and writes the augmented block [1,256,2048] (the raw
  query rows on the left half of the last axis, the task embedding on the right half) and the weights block
  [1,256,1024]. This module runs the body once on generic blocks, states what each output block holds after it as a
  function of the two input blocks, and carries that through the pipeline of each call and through the two calls in
  sequence: every execution terminates without fault, the four argument arrays end unchanged, and each result array
  ends holding, block by block, the body's outputs at the blocks of the arrays as the call found them.
-/
import proofs.«109901_j17076789968986_1_alg».proof.Proof.Gen.KernelIdeal.Launch
import proofs.«109901_j17076789968986_1_alg».proof.Proof.Gen.KernelIdeal.Skeleton
import proofs.«109901_j17076789968986_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: pallas_call 0 at the contents `V` its arrays hold when it is entered -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the support
    window is fetched only when the batch index moves; between fetches its block index is unchanged). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: the whole query block, the whole support block, the left and the right
    half of the augmented block's last axis, the whole weights block. -/
abbrev rq0 : Rect S1x256x1024 := Rect.unit (s := S1x256x1024) ![0, 0, 0] S1x256x1024.size inb_S1x256x1024_S1x256x1024_0_0_0
abbrev rkv0 : Rect S1x1024x1024 := Rect.unit (s := S1x1024x1024) ![0, 0, 0] S1x1024x1024.size inb_S1x1024x1024_S1x1024x1024_0_0_0
abbrev rl0 : Rect S1x256x2048 := Rect.unit (s := S1x256x2048) ![0, 0, 0] S1x256x1024.size inb_S1x256x2048_S1x256x1024_0_0_0
abbrev rr0 : Rect S1x256x2048 := Rect.unit (s := S1x256x2048) ![0, 0, 1024] S1x256x1024.size inb_S1x256x2048_S1x256x1024_0_0_1024

/-- The augmented block after the body: the query block on the left half, the task embedding on the right half
    (the two stores as pieces, the later first). -/
def out0_2 (x0 : Vec F S1x256x1024 .f32) (x1 : Vec F S1x1024x1024 .f32) : Vec F S1x256x2048 .f32 :=
  View.canon [⟨rr0, k0_pay2 (k0_pay7 (View.ld x0 rq0) (View.ld x1 rkv0))⟩, ⟨rl0, k0_pay1 (k0_pay4 (View.ld x0 rq0))⟩]
/-- The weights block after the body: the softmax weights, stored whole. -/
def out0_3 (x0 : Vec F S1x256x1024 .f32) (x1 : Vec F S1x1024x1024 .f32) : Vec F S1x256x1024 .f32 :=
  View.canon [⟨rq0, k0_pay3 (k0_pay6 (View.ld x0 rq0) (View.ld x1 rkv0))⟩]

/-- The two half stores tile the augmented block; the one store covers the weights block. -/
theorem cover0_2 (p0 p1 : Vec F S1x256x1024 .f32) (y : S1x256x2048.Idx) :
    ∃ pc ∈ ([⟨rr0, p0⟩, ⟨rl0, p1⟩] : List (View.Piece (Elt F) S1x256x2048 .f32)), y ∈ pc.1.set :=
  View.cover_of_tiled [⟨rr0, p0⟩, ⟨rl0, p1⟩] S1x256x1024.size (by rfl) y
theorem cover0_3 (p0 : Vec F S1x256x1024 .f32) (y : S1x256x1024.Idx) :
    ∃ pc ∈ ([⟨rq0, p0⟩] : List (View.Piece (Elt F) S1x256x1024 .f32)), y ∈ pc.1.set :=
  View.cover_of_tiled [⟨rq0, p0⟩] S1x256x1024.size (by rfl) y

set_option maxHeartbeats 4000000 in
/-- The body on whole staging buffers — the inputs' at contents `x0`, `x1`, the outputs' at anything — runs to its end
    leaving the inputs as they were and the outputs at `out0_2`, `out0_3` of the inputs. -/
theorem sound_kernel0 (c : Dev nD) (E : Set ℕ) (i : grid0.Coords)
    (arg2 : Memref sig .tc .vmem S1x256x1024 .f32) (harg2 : arg2.IsWhole) (arg3 : Memref sig .tc .vmem S1x1024x1024 .f32) (harg3 : arg3.IsWhole)
    (arg4 : Memref sig .tc .vmem S1x256x2048 .f32) (harg4 : arg4.IsWhole) (arg5 : Memref sig .tc .vmem S1x256x1024 .f32) (harg5 : arg5.IsWhole)
    (x0 : Vec F S1x256x1024 .f32) (x1 : Vec F S1x1024x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__cos_attn_kernel i arg2 harg2 arg3 harg3 arg4 harg4 arg5 harg5) K := by
  simp only [cc0__cos_attn_kernel_eq_skeleton]; unfold cc0__cos_attn_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _ _)
  iexists _; isplitr
  swap; · iexact H3
  ipureintro
  exact View.read_writes_eq_canon _ _ _ (cover0_3 _)

/-- The proof data of pipeline 0: the arrays as the region finds them; after the body at a point each input's buffer
    holds its block and each output's what the body makes of the two input blocks; the body uses nothing beyond its
    windows and owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

/-! # Region 1: pallas_call 1 at the contents `V` its arrays hold when it is entered -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the support
    window is fetched only when the batch index moves; between fetches its block index is unchanged). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: the whole query block, the whole support block, the left and the right
    half of the augmented block's last axis, the whole weights block. -/
abbrev rq1 : Rect S1x256x1024 := Rect.unit (s := S1x256x1024) ![0, 0, 0] S1x256x1024.size inb_S1x256x1024_S1x256x1024_0_0_0
abbrev rkv1 : Rect S1x1024x1024 := Rect.unit (s := S1x1024x1024) ![0, 0, 0] S1x1024x1024.size inb_S1x1024x1024_S1x1024x1024_0_0_0
abbrev rl1 : Rect S1x256x2048 := Rect.unit (s := S1x256x2048) ![0, 0, 0] S1x256x1024.size inb_S1x256x2048_S1x256x1024_0_0_0
abbrev rr1 : Rect S1x256x2048 := Rect.unit (s := S1x256x2048) ![0, 0, 1024] S1x256x1024.size inb_S1x256x2048_S1x256x1024_0_0_1024

/-- The augmented block after the body: the query block on the left half, the task embedding on the right half
    (the two stores as pieces, the later first). -/
def out1_2 (x0 : Vec F S1x256x1024 .f32) (x1 : Vec F S1x1024x1024 .f32) : Vec F S1x256x2048 .f32 :=
  View.canon [⟨rr1, k1_pay2 (k1_pay7 (View.ld x0 rq1) (View.ld x1 rkv1))⟩, ⟨rl1, k1_pay1 (k1_pay4 (View.ld x0 rq1))⟩]
/-- The weights block after the body: the softmax weights, stored whole. -/
def out1_3 (x0 : Vec F S1x256x1024 .f32) (x1 : Vec F S1x1024x1024 .f32) : Vec F S1x256x1024 .f32 :=
  View.canon [⟨rq1, k1_pay3 (k1_pay6 (View.ld x0 rq1) (View.ld x1 rkv1))⟩]

/-- The two half stores tile the augmented block; the one store covers the weights block. -/
theorem cover1_2 (p0 p1 : Vec F S1x256x1024 .f32) (y : S1x256x2048.Idx) :
    ∃ pc ∈ ([⟨rr1, p0⟩, ⟨rl1, p1⟩] : List (View.Piece (Elt F) S1x256x2048 .f32)), y ∈ pc.1.set :=
  View.cover_of_tiled [⟨rr1, p0⟩, ⟨rl1, p1⟩] S1x256x1024.size (by rfl) y
theorem cover1_3 (p0 : Vec F S1x256x1024 .f32) (y : S1x256x1024.Idx) :
    ∃ pc ∈ ([⟨rq1, p0⟩] : List (View.Piece (Elt F) S1x256x1024 .f32)), y ∈ pc.1.set :=
  View.cover_of_tiled [⟨rq1, p0⟩] S1x256x1024.size (by rfl) y

set_option maxHeartbeats 4000000 in
/-- The body on whole staging buffers — the inputs' at contents `x0`, `x1`, the outputs' at anything — runs to its end
    leaving the inputs as they were and the outputs at `out1_2`, `out1_3` of the inputs. -/
theorem sound_kernel1 (c : Dev nD) (E : Set ℕ) (i : grid1.Coords)
    (arg2 : Memref sig .tc .vmem S1x256x1024 .f32) (harg2 : arg2.IsWhole) (arg3 : Memref sig .tc .vmem S1x1024x1024 .f32) (harg3 : arg3.IsWhole)
    (arg4 : Memref sig .tc .vmem S1x256x2048 .f32) (harg4 : arg4.IsWhole) (arg5 : Memref sig .tc .vmem S1x256x1024 .f32) (harg5 : arg5.IsWhole)
    (x0 : Vec F S1x256x1024 .f32) (x1 : Vec F S1x1024x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out1_2 x0 x1) ∗ owns (c : Thread nD τ) arg5 fullShare (out1_3 x0 x1)) -∗ K ⟨⟩))
      ⊢ wp frame (wpE (defs₀ (F := F)) Variants.none c none) E (cc1__cos_attn_kernel i arg2 harg2 arg3 harg3 arg4 harg4 arg5 harg5) K := by
  simp only [cc1__cos_attn_kernel_eq_skeleton]; unfold cc1__cos_attn_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _ _)
  iexists _; isplitr
  swap; · iexact H3
  ipureintro
  exact View.read_writes_eq_canon _ _ _ (cover1_3 _)

/-- The proof data of pipeline 1: the arrays as the region finds them; after the body at a point each input's buffer
    holds its block and each output's what the body makes of the two input blocks; the body uses nothing beyond its
    windows and owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q w := match w with
    | ⟨0, _⟩ => fullShare
    | ⟨1, _⟩ => fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Regions
end Cert.KernelIdeal.Run
end
-- ==== Proof.KernelIdealRun.lean ====
/-
  The kernel program's two pallas_calls in sequence, for any float instance: every execution terminates without
  fault, the four argument arrays end as launched, and each result array ends at what its call's write-backs leave
  (block by block the body's outputs at the blocks of the arrays as that call found them).

  Between the calls a core holds every unscoped buffer whole. The first call reads the support array through BOTH of
  its input windows: at its entry the array's ownership is split into two halves, one per window, and the halves
  are joined again at its exit; the second call's four windows are on four distinct arrays.
-/
import proofs.«109901_j17076789968986_1_alg».proof.Proof.KernelIdealBody

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions

end Regions

/-! # The two calls in sequence

Between the calls a core holds every unscoped buffer whole. At launch they hold the launch memory; the first call
changes only its two result arrays, the second only its own two. -/

/-- Core `c`'s unscoped buffers at launch. -/
abbrev W0 : Dev nD → Valuation τ sig (Elt F) := fun c b => m (c, b)
abbrev V0 : (c : Dev nD) → (b : Ref sig .tc) → Buf (Elt F) ((c : Thread nD τ).loc b) := fun c b => W0 m c b

/-- What the first call's write-backs leave in its augmented array and in its weights array. -/
def res0_aug (c : Dev nD) : Buf (Elt F) ((c : Thread nD τ).loc main_v0_0) := (dat0 (V0 m) c).arrAt 2 cfg0.N
def res0_g (c : Dev nD) : Buf (Elt F) ((c : Thread nD τ).loc main_v0_1) := (dat0 (V0 m) c).arrAt 3 cfg0.N

/-- The buffers after the first call. -/
abbrev W1 (c : Dev nD) : Valuation τ sig (Elt F) :=
  Function.update (Function.update (W0 m c) main_v0_0 (res0_aug m c)) main_v0_1 (res0_g m c)
abbrev V1 : (c : Dev nD) → (b : Ref sig .tc) → Buf (Elt F) ((c : Thread nD τ).loc b) := fun c b => W1 m c b

/-- What the second call's write-backs leave in its two result arrays. -/
def res1_aug (c : Dev nD) : Buf (Elt F) ((c : Thread nD τ).loc main_v1_0) := (dat1 (V1 m) c).arrAt 2 cfg1.N
def res1_g (c : Dev nD) : Buf (Elt F) ((c : Thread nD τ).loc main_v1_1) := (dat1 (V1 m) c).arrAt 3 cfg1.N

/-- The buffers after the second call. -/
abbrev W2 (c : Dev nD) : Valuation τ sig (Elt F) :=
  Function.update (Function.update (W1 m c) main_v1_0 (res1_aug m c)) main_v1_1 (res1_g m c)
abbrev V2 : (c : Dev nD) → (b : Ref sig .tc) → Buf (Elt F) ((c : Thread nD τ).loc b) := fun c b => W2 m c b

/-- A call leaves every buffer but its two result arrays as it found it. -/
theorem W1_of (c : Dev nD) (r : Ref sig .tc) (h : r ∉ ([main_v0_0, main_v0_1] : List (Ref sig .tc))) : W1 m c r = W0 m c r := by
  simp only [W1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem W2_of (c : Dev nD) (r : Ref sig .tc) (h : r ∉ ([main_v1_0, main_v1_1] : List (Ref sig .tc))) : W2 m c r = W1 m c r := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem W1_aug (c : Dev nD) : W1 m c main_v0_0 = res0_aug m c := by
  simp only [W1, Function.update_of_ne (StableHlo.devRef_ne_of_ne (by decide : main_v0_0 ≠ main_v0_1) : (Proc.devRef .tc main_v0_0 : DevRef τ sig) ≠ Proc.devRef .tc main_v0_1), Function.update_self]
theorem W1_g (c : Dev nD) : W1 m c main_v0_1 = res0_g m c := by
  simp only [W1, Function.update_self]
theorem W2_aug (c : Dev nD) : W2 m c main_v1_0 = res1_aug m c := by
  simp only [W2, Function.update_of_ne (StableHlo.devRef_ne_of_ne (by decide : main_v1_0 ≠ main_v1_1) : (Proc.devRef .tc main_v1_0 : DevRef τ sig) ≠ Proc.devRef .tc main_v1_1), Function.update_self]
theorem W2_g (c : Dev nD) : W2 m c main_v1_1 = res1_g m c := by
  simp only [W2, Function.update_self]

/-- No pallas_call has a prefetched table. -/
abbrev adm : (p : Fin 2) → (pcfgs (F := F) p).Adm := fun p => (cfgs p).toPCfg_adm
/-- Each pipeline's proof data at the contents its call is entered with. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-- The distinct buffers behind the first call's windows: the support array (read through both input windows) and the
    two result arrays. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0_0) ↦{fullShare} V main_v0_0) ∗ (((c : Thread nD τ).loc main_v0_1) ↦{fullShare} V main_v0_1)) := by
  unfold Pipeline.arrBufs
  exact bigSep_eq_bigSepL_of_eq [main_arg0, main_v0_0, main_v0_1] (by decide) (by decide) _

/-- The first call's windowed arrays one by one: the support array twice (once per input window, each at its
    window's share), then the two result arrays. -/
theorem arrays0_eq (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_arg0) ↦{dat.share 0} G 0) ∗ (((c : Thread nD τ).loc main_arg0) ↦{dat.share 1} G 1)
          ∗ (((c : Thread nD τ).loc main_v0_0) ↦{dat.share 2} G 2) ∗ (((c : Thread nD τ).loc main_v0_1) ↦{dat.share 3} G 3)) := by
  unfold Pipeline.Dat.arrays
  rw [bigSep_W0]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ]

/-! ## The calls as segments of @main -/

set_option backward.isDefEq.respectTransparency.types false in
/-- The first call: entered from every unscoped buffer at the launch contents, left with its two result arrays at
    what its write-backs leave. The support array's ownership is halved between the two input windows at the entry
    and made whole again at the exit. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (StableHlo.held (c : Thread nD τ) (Pipeline.ucRefs τ sig) (W0 m c) : sProp 𝕄)
        = iprop((Pipeline.arrBufs spec0 c (V0 m c) : sProp 𝕄) ∗ Pipeline.unscopedRest spec0 c (V0 m c)) := by
      rw [← Pipeline.unscopedBufs_held c (W0 m c)]
      exact Pipeline.unscopedBufs_split₀ cfgs 0 winFacts₀0.arr_unscoped c (V0 m c)
    rw [hsplit, arrBufs0_eq, arrays0_eq]
    iintro ⟨⟨⟨⟨Ha, H2, H3⟩, Hrest⟩, Hp, HO⟩, -, -⟩
    ihave Ha' := (pointsTo_share (PosShare.mem_left_op_right fullShare)).1 $$ Ha
    icases Ha' with ⟨Ha0, Ha1⟩
    imodintro
    isplitl [Ha0 Ha1 H2 H3]
    · isplitl [Ha0]; · iexact Ha0
      isplitl [Ha1]; · iexact Ha1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (StableHlo.held (c : Thread nD τ) (Pipeline.ucRefs τ sig) (W1 m c) : sProp 𝕄)
        = iprop((Pipeline.arrBufs spec0 c (V1 m c) : sProp 𝕄) ∗ Pipeline.unscopedRest spec0 c (V1 m c)) := by
      rw [← Pipeline.unscopedBufs_held c (W1 m c)]
      exact Pipeline.unscopedBufs_split₀ cfgs 0 winFacts₀0.arr_unscoped c (V1 m c)
    have hrest : (Pipeline.unscopedRest (Ix := Unit) (Name := ℕ) (U := UR sig nD τ) (Lvl := ℕ) spec0 c (V1 m c) : sProp 𝕄)
        = Pipeline.unscopedRest spec0 c (V0 m c) := by
      rw [unscopedRest0_eq, unscopedRest0_eq]
      rw [show V1 m c main_arg1 = V0 m c main_arg1 from W1_of m c main_arg1 (by decide),
        show V1 m c main_arg2 = V0 m c main_arg2 from W1_of m c main_arg2 (by decide),
        show V1 m c main_arg3 = V0 m c main_arg3 from W1_of m c main_arg3 (by decide),
        show V1 m c main_v1_0 = V0 m c main_v1_0 from W1_of m c main_v1_0 (by decide),
        show V1 m c main_v1_1 = V0 m c main_v1_1 from W1_of m c main_v1_1 (by decide)]
    have h0 : (pdats m 0 c).arrAt 0 (Pipeline.pin (pcfgs (F := F)) adm 0).N = V1 m c main_arg0 :=
      (((pdats m 0 c).arrAt_in 0 rfl _).trans (A_eq0 (V0 m) c 0)).trans (W1_of m c main_arg0 (by decide)).symm
    have h1 : (pdats m 0 c).arrAt 1 (Pipeline.pin (pcfgs (F := F)) adm 0).N = V1 m c main_arg0 :=
      (((pdats m 0 c).arrAt_in 1 rfl _).trans (A_eq0 (V0 m) c 1)).trans (W1_of m c main_arg0 (by decide)).symm
    have h2 : (pdats m 0 c).arrAt 2 (Pipeline.pin (pcfgs (F := F)) adm 0).N = V1 m c main_v0_0 := (W1_aug m c).symm
    have h3 : (pdats m 0 c).arrAt 3 (Pipeline.pin (pcfgs (F := F)) adm 0).N = V1 m c main_v0_1 := (W1_g m c).symm
    rw [hjoin, hrest, arrBufs0_eq, arrays0_eq, h0, h1, h2, h3]
    iintro ⟨⟨Ha0, Ha1, H2, H3⟩, HO, HY, Hrest⟩
    imodintro
    isplitl [Ha0 Ha1 H2 H3 Hrest]
    · isplitl [Ha0 Ha1 H2 H3]
      · isplitl [Ha0 Ha1]
        · iapply (pointsTo_share (PosShare.mem_left_op_right fullShare)).2
          isplitl [Ha0]; · iexact Ha0
          iexact Ha1
        isplitl [H2]; · iexact H2
        iexact H3
      iexact Hrest
    isplitl [HY]; · iexact HY
    unfold Pipeline.Dat.owesAt Pipeline.owesWithin
    icases HO with ⟨%W, -, HO⟩; iexists W; iexact HO

/-- At the second call's exit each of its arrays holds what the pipeline leaves and every other buffer what it held
    at the call's entry. -/
theorem hF1 (c : Dev nD) (w : Fin cfg1.W) : (dat1 (V1 m) c).arrAt w cfg1.N = V2 m c (Pipeline.arrRef spec1 w) :=
  match w with
  | ⟨0, _⟩ => (((dat1 (V1 m) c).arrAt_in 0 rfl _).trans (A_eq1 (V1 m) c 0)).trans (W2_of m c main_arg1 (by decide)).symm
  | ⟨1, _⟩ => (((dat1 (V1 m) c).arrAt_in 1 rfl _).trans (A_eq1 (V1 m) c 1)).trans (W2_of m c main_arg0 (by decide)).symm
  | ⟨2, _⟩ => (W2_aug m c).symm
  | ⟨3, _⟩ => (W2_g m c).symm
theorem hrest1 (c : Dev nD) : ∀ b, b ∉ Finset.univ.image (Pipeline.arrRef spec1) → V2 m c b = V1 m c b := fun b hb =>
  W2_of m c b (fun h => by
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h List.not_mem_nil)

set_option backward.isDefEq.respectTransparency.types false in
/-- The second call: its four windows are on four distinct arrays, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun w => by dsimp only [pdats, dat1]; split <;> rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => by dsimp only [pdats, dat1]; split <;> rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's two segments. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting;
    the four result arrays end at what their calls' write-backs leave and the four arguments as launched. -/
theorem run_main : θ_run defs (onTc (τ := τ) (main (F := F))) ⟨m, fun _ => 0, ρ⟩ (fun r => ∀ c : Dev nD,
      r.2.mem ((c.tc : Thread nD τ).loc main_v0_0) = res0_aug m c
      ∧ r.2.mem ((c.tc : Thread nD τ).loc main_v1_0) = res1_aug m c
      ∧ r.2.mem ((c.tc : Thread nD τ).loc main_v0_1) = res0_g m c
      ∧ r.2.mem ((c.tc : Thread nD τ).loc main_v1_1) = res1_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v0_0 (by decide))).trans ((W2_of m c main_v0_0 (by decide)).trans (W1_aug m c)),
       (h c _ (mem_uc main_v1_0 (by decide))).trans (W2_aug m c),
       (h c _ (mem_uc main_v0_1 (by decide))).trans ((W2_of m c main_v0_1 (by decide)).trans (W1_g m c)),
       (h c _ (mem_uc main_v1_1 (by decide))).trans (W2_g m c),
       (h c _ (mem_uc main_arg0 (by decide))).trans ((W2_of m c main_arg0 (by decide)).trans (W1_of m c main_arg0 (by decide))),
       (h c _ (mem_uc main_arg1 (by decide))).trans ((W2_of m c main_arg1 (by decide)).trans (W1_of m c main_arg1 (by decide))),
       (h c _ (mem_uc main_arg2 (by decide))).trans ((W2_of m c main_arg2 (by decide)).trans (W1_of m c main_arg2 (by decide))),
       (h c _ (mem_uc main_arg3 (by decide))).trans ((W2_of m c main_arg3 (by decide)).trans (W1_of m c main_arg3 (by decide)))⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2.2.2) (run_main m ρ)

end Cert.KernelIdeal.Run
end
-- ==== Proof.KernelRows1.lean ====
/-
  The kernel body's operations read at one index, over the extended reals.

  A row sum read at a row is the sum over that row's entries; a row maximum is the fold of `max` over them; a
  column of per-row values (one value per row, kept as a column) spread over the row's entries reads, at every entry of
  row `r`, the value of row `r`; and the body's matrix product into a zero accumulator reads, at `(r, c)`, the sum
  over the contracted coordinate `k` of the left operand at `(r, k)` times the right operand at `(k, c)`.
-/
import proofs.«109901_j17076789968986_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.CosAttn

open Idealize.ShloMosaic Cert.KernelIdeal Cert.KernelIdeal.Gen ValueIdx

/-! ## A per-row value kept as a column -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's sum and a row's maximum -/

/-- The sum along the rows of an `[a, b]` array, read at row `r`: the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  show ∑ k : Fin b, src (h.lift (ix1 r) k) = ∑ k : Fin b, src (ix2 r k)
  refine Finset.sum_congr rfl fun k _ => congrArg src ?_
  funext c
  match c with
  | ⟨0, _⟩ => rfl
  | ⟨1, _⟩ => rfl

/-- The maximum along the rows of an `[a, b]` array from the word `w`, read at row `r`: the fold of `max`, from the
value of `w`, over that row's entries. -/
theorem rowMax_apply {a b : ℕ} (src : FVec Ideal ⟨2, ![a, b]⟩ .f32) (w : BitVec 32)
    (h : (⟨2, ![a, b]⟩ : Shape).Reduces [1] ⟨1, ![a]⟩) (hφ : FKind.Formats .f32)
    (hacc : w = FKind.maximumf.neutral .f32 hφ) (r : Fin a) :
    multiReduction (F := Ideal) .maximumf [1] ⟨1, ![a]⟩ src w h hφ hacc (ix1 r)
      = (Finset.univ : Finset (Fin b)).fold max (Ideal.ofBits .f32 w) (fun k => src (ix2 r k)) := by
  refine (Ideal.multiReduction_maximumf_single src _ h hφ hacc (ix1 r)).trans ?_
  show (Finset.univ : Finset (Fin b)).fold max (Ideal.ofBits .f32 w) (src ∘ h.lift (ix1 r)) = _
  have e : (fun k : Fin b => src (h.lift (ix1 r) k)) = fun k : Fin b => src (ix2 r k) :=
    funext fun k => congrArg src (funext fun c => by
      match c with
      | ⟨0, _⟩ => rfl
      | ⟨1, _⟩ => rfl)
  exact congrArg (fun f : Fin b → EReal => (Finset.univ : Finset (Fin b)).fold max (Ideal.ofBits .f32 w) f) e

/-! ## The body's matrix product -/

theorem mm_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem mm_lhs1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q

theorem mm_rhs0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

theorem mm_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The body's `[256, 1024] × [1024, 1024]` product into the zero accumulator, read at `(r, c)`: the sum over `k` of
the left operand at `(r, k)` times the right operand at `(k, c)`. -/
theorem mm_apply {φ₁ φ₂ : FTy} (l : FVec Ideal S256x1024 φ₁) (rr : FVec Ideal S1024x1024 φ₂) (r : Fin 256) (c : Fin 1024) :
    matmul dot_S256x1024_S1024x1024_S256x1024_1_0_0_1_n_n none l rr (constant (F := Ideal) S256x1024 .f32 0x00000000#32) (ix2 r c)
      = ∑ k : Fin 1024, l (ix2 r k) * rr (ix2 k c) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c)
      ((contrEquiv1 dot_S256x1024_S1024x1024_S256x1024_1_0_0_1_n_n 1024 rfl rfl).symm k) = ix2 r k :=
    funext fun a => Fin.ext (by
      match a with
      | ⟨0, _⟩ => exact mm_lhs0 _ _
      | ⟨1, _⟩ => exact (mm_lhs1 _ _).trans hk)
  have er : dot_S256x1024_S1024x1024_S256x1024_1_0_0_1_n_n.rhsIdx (ix2 r c)
      ((contrEquiv1 dot_S256x1024_S1024x1024_S256x1024_1_0_0_1_n_n 1024 rfl rfl).symm k) = ix2 k c :=
    funext fun a => Fin.ext (by
      match a with
      | ⟨0, _⟩ => exact (mm_rhs0 _ _).trans hk
      | ⟨1, _⟩ => exact mm_rhs1 _ _)
  rw [el, er]

end Cert.CosAttn

end
-- ==== Proof.KernelRows2.lean ====
/-
  The kernel body's values at an index, over the extended reals.

  The body normalises the rows of the query block and of the support block (each entry over its row's clamped norm),
  multiplies them into the matrix of cosines, subtracts each row's maximum, exponentiates, divides by each row's sum,
  and multiplies the weights so found with the raw support block. Read at one entry, each of these stages is the
  corresponding function of the specification, applied to the query row and to the support rows.
-/
import proofs.«109901_j17076789968986_1_alg».proof.Proof.KernelRows1
import proofs.«109901_j17076789968986_1_alg».proof.Proof.Spec

noncomputable section

namespace Cert.CosAttn

open Idealize.ShloMosaic Cert.KernelIdeal Cert.KernelIdeal.Gen ValueIdx

/-! ## Rows over their clamped norms -/

/-- The rows of an `[a, 1024]` array, each entry divided by its row's clamped norm, as the body computes them:
the row sums of the squares kept as a column, their square roots joined with the clamp, spread back over the rows. -/
def normRows {a : ℕ} (y : FVec Ideal ⟨2, ![a, 1024]⟩ .f32)
    (hr : (⟨2, ![a, 1024]⟩ : Shape).Reduces [1] ⟨1, ![a]⟩) (hc : (⟨1, ![a]⟩ : Shape).ShapeCasts ⟨2, ![a, 1]⟩)
    (hb : (⟨2, ![a, 1]⟩ : Shape).Broadcasts ⟨2, ![a, 1024]⟩) : FVec Ideal ⟨2, ![a, 1024]⟩ .f32 :=
  divf y (broadcastTo ⟨2, ![a, 1024]⟩
    (maximumf
      (sqrt (shapeCast ⟨2, ![a, 1]⟩
        (multiReduction (F := Ideal) .add [1] ⟨1, ![a]⟩ (mulf y y) 0x00000000#32 hr (.inl rfl) rfl) hc))
      (broadcast ⟨2, ![a, 1]⟩ (Scalar.ofBits .f32 0x322BCC77#32))) hb)

/-- Read at `(r, k)`: the entry over the clamped norm of row `r`. -/
theorem normRows_apply {a : ℕ} (y : FVec Ideal ⟨2, ![a, 1024]⟩ .f32)
    (hr : (⟨2, ![a, 1024]⟩ : Shape).Reduces [1] ⟨1, ![a]⟩) (hc : (⟨1, ![a]⟩ : Shape).ShapeCasts ⟨2, ![a, 1]⟩)
    (hb : (⟨2, ![a, 1]⟩ : Shape).Broadcasts ⟨2, ![a, 1024]⟩) (r : Fin a) (k : Fin 1024) :
    normRows y hr hc hb (ix2 r k) = Ideal.div (y (ix2 r k)) (nrm fun k' => y (ix2 r k')) := by
  unfold normRows nrm
  refine congrArg (Ideal.div (y (ix2 r k))) ?_
  refine (broadcastTo_a1_ab_apply _ hb r k).trans ?_
  refine congrArg (fun t => max (Ideal.sqrt t) epsW) ?_
  refine (shapeCast_a_a1_apply _ hc r 0).trans ?_
  exact rowSum_apply (mulf y y) hr _ _ r

/-! ## The cosines, the exponentials, the weights, the weighted sum -/

/-- The matrix of cosines: the normalised query block times the transposed normalised support block. -/
def cosMat (y : FVec Ideal S256x1024 .f32) (z : FVec Ideal S1024x1024 .f32) : FVec Ideal S256x1024 .f32 :=
  matmul dot_S256x1024_S1024x1024_S256x1024_1_0_0_1_n_n none
    (truncf .bf16 (normRows y reduces_S256x1024_S256 shapeCasts_S256_S256x1 broadcasts_S256x1_S256x1024) bitsLt_bf16_f32)
    (transpose S1024x1024 [1, 0]
      (truncf .bf16 (normRows z reduces_S1024x1024_S1024 shapeCasts_S1024_S1024x1 broadcasts_S1024x1_S1024x1024) bitsLt_bf16_f32)
      transposes_S1024x1024_p1_0_S1024x1024)
    (constant S256x1024 .f32 0x00000000#32)

/-- Read at `(r, j)`: the cosine of query row `r` with support row `j`. -/
theorem cosMat_apply (y : FVec Ideal S256x1024 .f32) (z : FVec Ideal S1024x1024 .f32) (r : Fin 256) (j : Fin 1024) :
    cosMat y z (ix2 r j) = cosv (fun k => y (ix2 r k)) (fun j' k => z (ix2 j' k)) j := by
  unfold cosMat cosv
  refine (mm_apply _ _ r j).trans ?_
  refine Finset.sum_congr rfl fun k _ => ?_
  refine congrArg₂ (· * ·) ?_ ?_
  · exact normRows_apply y _ _ _ r k
  · refine (transpose_ix2_apply _ _ k j).trans ?_
    exact normRows_apply z _ _ _ j k

/-- The exponentials of the cosines less their row's maximum (the maximum taken from −∞ and joined with −∞). -/
def expMat (y : FVec Ideal S256x1024 .f32) (z : FVec Ideal S1024x1024 .f32) : FVec Ideal S256x1024 .f32 :=
  exp (subf (cosMat y z) (broadcastTo S256x1024
    (shapeCast S256x1
      (maximumf (broadcast S256 (Scalar.ofBits .f32 0xFF800000#32))
        (multiReduction (F := Ideal) .maximumf [1] S256 (cosMat y z) 0xFF800000#32 reduces_S256x1024_S256 (.inl rfl) rfl))
      shapeCasts_S256_S256x1) broadcasts_S256x1_S256x1024))

/-- Read at `(r, j)`. -/
theorem expMat_apply (y : FVec Ideal S256x1024 .f32) (z : FVec Ideal S1024x1024 .f32) (r : Fin 256) (j : Fin 1024) :
    expMat y z (ix2 r j) = expv (fun k => y (ix2 r k)) (fun j' k => z (ix2 j' k)) j := by
  unfold expMat expv rowMax
  refine congrArg Ideal.exp (congrArg₂ (· - ·) (cosMat_apply y z r j) ?_)
  refine (broadcastTo_a1_ab_apply _ _ r j).trans ?_
  refine (shapeCast_a_a1_apply _ _ r 0).trans ?_
  refine congrArg (max negInfW) ?_
  refine (rowMax_apply (cosMat y z) _ _ _ _ r).trans ?_
  exact congrArg (fun f : Fin 1024 → EReal => (Finset.univ : Finset (Fin 1024)).fold max negInfW f)
    (funext fun j' => cosMat_apply y z r j')

/-- The attention weights: the exponentials over their row's sum. -/
def smMat (y : FVec Ideal S256x1024 .f32) (z : FVec Ideal S1024x1024 .f32) : FVec Ideal S256x1024 .f32 :=
  divf (expMat y z) (broadcastTo S256x1024
    (shapeCast S256x1
      (multiReduction (F := Ideal) .add [1] S256 (expMat y z) 0x00000000#32 reduces_S256x1024_S256 (.inl rfl) rfl)
      shapeCasts_S256_S256x1) broadcasts_S256x1_S256x1024)

/-- Read at `(r, j)`: the softmax weight of support row `j` for query row `r`. -/
theorem smMat_apply (y : FVec Ideal S256x1024 .f32) (z : FVec Ideal S1024x1024 .f32) (r : Fin 256) (j : Fin 1024) :
    smMat y z (ix2 r j) = weights (fun k => y (ix2 r k)) (fun j' k => z (ix2 j' k)) j := by
  unfold smMat weights
  refine congrArg₂ Ideal.div (expMat_apply y z r j) ?_
  refine (broadcastTo_a1_ab_apply _ _ r j).trans ?_
  refine (shapeCast_a_a1_apply _ _ r 0).trans ?_
  refine (rowSum_apply (expMat y z) _ _ _ r).trans ?_
  exact Finset.sum_congr rfl fun j' _ => expMat_apply y z r j'

/-- The weights times the raw support block. -/
def taskMat (w : FVec Ideal S256x1024 .f32) (z : FVec Ideal S1024x1024 .f32) : FVec Ideal S256x1024 .f32 :=
  matmul dot_S256x1024_S1024x1024_S256x1024_1_0_0_1_n_n none (truncf .bf16 w bitsLt_bf16_f32) (truncf .bf16 z bitsLt_bf16_f32)
    (constant S256x1024 .f32 0x00000000#32)

/-- Read at `(r, d)`: the weighted sum over the support rows of their entry `d`. -/
theorem taskMat_apply (y : FVec Ideal S256x1024 .f32) (z : FVec Ideal S1024x1024 .f32) (r : Fin 256) (d : Fin 1024) :
    taskMat (smMat y z) z (ix2 r d) = task (fun k => y (ix2 r k)) (fun j' k => z (ix2 j' k)) d := by
  unfold taskMat task
  refine (mm_apply _ _ r d).trans ?_
  exact Finset.sum_congr rfl fun j _ => congrArg (· * z (ix2 j d)) (smMat_apply y z r j)

end Cert.CosAttn

end
-- ==== Proof.KernelRows.lean ====
/-
  The two calls' bodies at an index.

  Each body loads a `[1, 256, 1024]` query block and a `[1, 1024, 1024]` support block, drops the leading unit axis,
  and computes the attention weights and the task embedding of the block's 256 query rows. Read at one entry, the
  weights are the specification's softmax weights of that query row against the 1024 support rows, and the embedding is
  the specification's weighted sum; what the body stores is each `[256, 1024]` value under a leading unit axis again.
-/
import proofs.«109901_j17076789968986_1_alg».proof.Proof.KernelRows2

noncomputable section

namespace Cert.CosAttn

open Idealize.ShloMosaic Cert.KernelIdeal Cert.KernelIdeal.Gen ValueIdx

/-! ## The first call's body -/

/-- The query block without its leading unit axis. -/
theorem pay4_apply (x0 : Vec Ideal S1x256x1024 .f32) (r : Fin 256) (k : Fin 1024) :
    k0_pay4 (F := Ideal) x0 (ix2 r k) = x0 (ix3 0 r k) :=
  shapeCast_1ab_ab_apply x0 _ r k

/-- The support block without its leading unit axis. -/
theorem pay5_apply (x1 : Vec Ideal S1x1024x1024 .f32) (j : Fin 1024) (k : Fin 1024) :
    k0_pay5 (F := Ideal) x1 (ix2 j k) = x1 (ix3 0 j k) :=
  shapeCast_1ab_ab_apply x1 _ j k

/-- What is stored is the `[256, 1024]` value under a leading unit axis. -/
theorem pay1_apply (v : FVec Ideal S256x1024 .f32) (r : Fin 256) (k : Fin 1024) :
    k0_pay1 (F := Ideal) v (ix3 0 r k) = v (ix2 r k) :=
  shapeCast_ab_1ab_apply v _ 0 r k

theorem pay2_apply (v : FVec Ideal S256x1024 .f32) (r : Fin 256) (k : Fin 1024) :
    k0_pay2 (F := Ideal) v (ix3 0 r k) = v (ix2 r k) :=
  shapeCast_ab_1ab_apply v _ 0 r k

theorem pay3_apply (v : FVec Ideal S256x1024 .f32) (r : Fin 256) (k : Fin 1024) :
    k0_pay3 (F := Ideal) v (ix3 0 r k) = v (ix2 r k) :=
  shapeCast_ab_1ab_apply v _ 0 r k

/-- The body's weights are the softmax stage of the two blocks without their unit axes. -/
theorem pay6_eq (x0 : Vec Ideal S1x256x1024 .f32) (x1 : Vec Ideal S1x1024x1024 .f32) :
    k0_pay6 (F := Ideal) x0 x1 = smMat (k0_pay4 x0) (k0_pay5 x1) := rfl

/-- The body's second product is the weighted-sum stage of those weights and the support block. -/
theorem pay7_eq (x0 : Vec Ideal S1x256x1024 .f32) (x1 : Vec Ideal S1x1024x1024 .f32) :
    k0_pay7 (F := Ideal) x0 x1 = taskMat (smMat (k0_pay4 x0) (k0_pay5 x1)) (k0_pay5 x1) := rfl

/-- The query row `r` and the support rows as the body sees them are the blocks' rows. -/
theorem rows_eq (x0 : Vec Ideal S1x256x1024 .f32) (x1 : Vec Ideal S1x1024x1024 .f32) (r : Fin 256) :
    ((fun k => k0_pay4 (F := Ideal) x0 (ix2 r k)) = fun k => x0 (ix3 0 r k))
      ∧ ((fun j' k => k0_pay5 (F := Ideal) x1 (ix2 j' k)) = fun j' k => x1 (ix3 0 j' k)) :=
  ⟨funext fun k => pay4_apply x0 r k, funext fun j' => funext fun k => pay5_apply x1 j' k⟩

/-- The weights the body computes, at `(r, j)`: the softmax weight of support row `j` for query row `r`. -/
theorem pay6_apply (x0 : Vec Ideal S1x256x1024 .f32) (x1 : Vec Ideal S1x1024x1024 .f32) (r : Fin 256) (j : Fin 1024) :
    k0_pay6 (F := Ideal) x0 x1 (ix2 r j) = weights (fun k => x0 (ix3 0 r k)) (fun j' k => x1 (ix3 0 j' k)) j := by
  refine (congrFun (pay6_eq x0 x1) (ix2 r j)).trans ?_
  refine (smMat_apply _ _ r j).trans ?_
  rw [(rows_eq x0 x1 r).1, (rows_eq x0 x1 r).2]

/-- The task embedding the body computes, at `(r, d)`: the weighted sum of the raw support rows' entry `d`. -/
theorem pay7_apply (x0 : Vec Ideal S1x256x1024 .f32) (x1 : Vec Ideal S1x1024x1024 .f32) (r : Fin 256) (d : Fin 1024) :
    k0_pay7 (F := Ideal) x0 x1 (ix2 r d) = task (fun k => x0 (ix3 0 r k)) (fun j' k => x1 (ix3 0 j' k)) d := by
  refine (congrFun (pay7_eq x0 x1) (ix2 r d)).trans ?_
  refine (taskMat_apply _ _ r d).trans ?_
  rw [(rows_eq x0 x1 r).1, (rows_eq x0 x1 r).2]

/-! ## The second call's body -/

/-- The query block without its leading unit axis. -/
theorem pay4_apply1 (x0 : Vec Ideal S1x256x1024 .f32) (r : Fin 256) (k : Fin 1024) :
    k1_pay4 (F := Ideal) x0 (ix2 r k) = x0 (ix3 0 r k) :=
  shapeCast_1ab_ab_apply x0 _ r k

/-- The support block without its leading unit axis. -/
theorem pay5_apply1 (x1 : Vec Ideal S1x1024x1024 .f32) (j : Fin 1024) (k : Fin 1024) :
    k1_pay5 (F := Ideal) x1 (ix2 j k) = x1 (ix3 0 j k) :=
  shapeCast_1ab_ab_apply x1 _ j k

/-- What is stored is the `[256, 1024]` value under a leading unit axis. -/
theorem pay1_apply1 (v : FVec Ideal S256x1024 .f32) (r : Fin 256) (k : Fin 1024) :
    k1_pay1 (F := Ideal) v (ix3 0 r k) = v (ix2 r k) :=
  shapeCast_ab_1ab_apply v _ 0 r k

theorem pay2_apply1 (v : FVec Ideal S256x1024 .f32) (r : Fin 256) (k : Fin 1024) :
    k1_pay2 (F := Ideal) v (ix3 0 r k) = v (ix2 r k) :=
  shapeCast_ab_1ab_apply v _ 0 r k

theorem pay3_apply1 (v : FVec Ideal S256x1024 .f32) (r : Fin 256) (k : Fin 1024) :
    k1_pay3 (F := Ideal) v (ix3 0 r k) = v (ix2 r k) :=
  shapeCast_ab_1ab_apply v _ 0 r k

/-- The body's weights are the softmax stage of the two blocks without their unit axes. -/
theorem pay6_eq1 (x0 : Vec Ideal S1x256x1024 .f32) (x1 : Vec Ideal S1x1024x1024 .f32) :
    k1_pay6 (F := Ideal) x0 x1 = smMat (k1_pay4 x0) (k1_pay5 x1) := rfl

/-- The body's second product is the weighted-sum stage of those weights and the support block. -/
theorem pay7_eq1 (x0 : Vec Ideal S1x256x1024 .f32) (x1 : Vec Ideal S1x1024x1024 .f32) :
    k1_pay7 (F := Ideal) x0 x1 = taskMat (smMat (k1_pay4 x0) (k1_pay5 x1)) (k1_pay5 x1) := rfl

/-- The query row `r` and the support rows as the body sees them are the blocks' rows. -/
theorem rows_eq1 (x0 : Vec Ideal S1x256x1024 .f32) (x1 : Vec Ideal S1x1024x1024 .f32) (r : Fin 256) :
    ((fun k => k1_pay4 (F := Ideal) x0 (ix2 r k)) = fun k => x0 (ix3 0 r k))
      ∧ ((fun j' k => k1_pay5 (F := Ideal) x1 (ix2 j' k)) = fun j' k => x1 (ix3 0 j' k)) :=
  ⟨funext fun k => pay4_apply1 x0 r k, funext fun j' => funext fun k => pay5_apply1 x1 j' k⟩

/-- The weights the body computes, at `(r, j)`: the softmax weight of support row `j` for query row `r`. -/
theorem pay6_apply1 (x0 : Vec Ideal S1x256x1024 .f32) (x1 : Vec Ideal S1x1024x1024 .f32) (r : Fin 256) (j : Fin 1024) :
    k1_pay6 (F := Ideal) x0 x1 (ix2 r j) = weights (fun k => x0 (ix3 0 r k)) (fun j' k => x1 (ix3 0 j' k)) j := by
  refine (congrFun (pay6_eq1 x0 x1) (ix2 r j)).trans ?_
  refine (smMat_apply _ _ r j).trans ?_
  rw [(rows_eq1 x0 x1 r).1, (rows_eq1 x0 x1 r).2]

/-- The task embedding the body computes, at `(r, d)`: the weighted sum of the raw support rows' entry `d`. -/
theorem pay7_apply1 (x0 : Vec Ideal S1x256x1024 .f32) (x1 : Vec Ideal S1x1024x1024 .f32) (r : Fin 256) (d : Fin 1024) :
    k1_pay7 (F := Ideal) x0 x1 (ix2 r d) = task (fun k => x0 (ix3 0 r k)) (fun j' k => x1 (ix3 0 j' k)) d := by
  refine (congrFun (pay7_eq1 x0 x1) (ix2 r d)).trans ?_
  refine (taskMat_apply _ _ r d).trans ?_
  rw [(rows_eq1 x0 x1 r).1, (rows_eq1 x0 x1 r).2]

end Cert.CosAttn

end
-- ==== Proof.KernelIdealValue.lean ====
/-
  What the kernel program's four result arrays hold after the run, at the extended reals, index by index.

  A result array is written back block by block: grid point (b, q) of a call writes rows 256q … 256q + 255 of batch b.
  The block's rows are functions of that point's two input blocks alone — the query block is rows 256q … of batch b
  of the call's query array, the support block is batch b of the support array, whole — so entry (b, r, ·) of a
  result array depends on row r of batch b of the query array and on batch b of the support array only, and is the
  same function of them wherever the row sits in its block: the attention weights of the row in the weights array,
  the row itself followed by its task embedding in the augmented array. The blocks tile each result array.
-/
import proofs.«109901_j17076789968986_1_alg».proof.Proof.KernelIdealRun
import proofs.«109901_j17076789968986_1_alg».proof.Proof.KernelRows
import proofs.«109901_j17076789968986_1_alg».proof.Proof.Spec
import Idealize.ShloMosaic.Lib.Pipeline.Value
import Idealize.ShloMosaic.Lib.ValueIdx

set_option maxRecDepth 16384

noncomputable section

namespace Cert.CosAttn

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

/-- The weights array as a function of the query array `Q` (of `n` rows per batch) and the support array `S`. -/
def weightsArr {n : ℕ} (Q : (⟨3, ![8, n, 1024]⟩ : Shape).Idx → EReal) (S : (⟨3, ![8, 1024, 1024]⟩ : Shape).Idx → EReal) :
    (⟨3, ![8, n, 1024]⟩ : Shape).Idx → EReal :=
  fun i => weights (fun k => Q (ix3 (i 0) (i 1) k)) (fun j k => S (ix3 (i 0) j k)) (i 2)

/-- The augmented array: the query row on the left half of the last axis, its task embedding on the right half. -/
def augArr {n : ℕ} (Q : (⟨3, ![8, n, 1024]⟩ : Shape).Idx → EReal) (S : (⟨3, ![8, 1024, 1024]⟩ : Shape).Idx → EReal) :
    (⟨3, ![8, n, 2048]⟩ : Shape).Idx → EReal :=
  fun i => if h : (i 2).val < 1024 then Q (ix3 (i 0) (i 1) ⟨(i 2).val, h⟩)
    else task (fun k => Q (ix3 (i 0) (i 1) k)) (fun j k => S (ix3 (i 0) j k)) ⟨(i 2).val - 1024, by have h2 : (i 2).val < 2048 := (i 2).isLt; omega⟩

theorem hz3 : (![0, 0, 0] : Fin 3 → Nat) = fun _ => 0 := funext fun a => by fin_cases a <;> rfl

section
variable (V : (c : Dev nD) → (b : Ref sig .tc) → Buf (Elt Ideal) ((c : Thread nD τ).loc b))

theorem weights_congr {q q' : Fin 1024 → EReal} {kv kv' : Fin 1024 → Fin 1024 → EReal} {j j' : Fin 1024}
    (hq : ∀ k, q k = q' k) (hkv : ∀ j k, kv j k = kv' j k) (hj : j = j') : weights q kv j = weights q' kv' j' := by
  rw [show q = q' from funext hq, show kv = kv' from funext fun j => funext (hkv j), hj]
theorem task_congr {q q' : Fin 1024 → EReal} {kv kv' : Fin 1024 → Fin 1024 → EReal} {j j' : Fin 1024}
    (hq : ∀ k, q k = q' k) (hkv : ∀ j k, kv j k = kv' j k) (hj : j = j') : task q kv j = task q' kv' j' := by
  rw [show q = q' from funext hq, show kv = kv' from funext fun j => funext (hkv j), hj]

/-! ## Call 0 -/

/-- The printed index maps over the grid: every window's block index is (batch, tile, 0) except the support window's, (batch, 0, 0). -/
theorem idx0 : ∀ t : Fin cfg0.N, win0_0.index t (0 : Fin 3) < 8 ∧ win0_0.index t (1 : Fin 3) < 4 ∧ win0_0.index t (2 : Fin 3) = 0
    ∧ win0_1.index t (0 : Fin 3) = win0_0.index t (0 : Fin 3) ∧ win0_1.index t (1 : Fin 3) = 0 ∧ win0_1.index t (2 : Fin 3) = 0
    ∧ win0_2.index t (0 : Fin 3) = win0_0.index t (0 : Fin 3) ∧ win0_2.index t (1 : Fin 3) = win0_0.index t (1 : Fin 3) ∧ win0_2.index t (2 : Fin 3) = 0
    ∧ win0_3.index t (0 : Fin 3) = win0_0.index t (0 : Fin 3) ∧ win0_3.index t (1 : Fin 3) = win0_0.index t (1 : Fin 3) ∧ win0_3.index t (2 : Fin 3) = 0 :=
  (by decide +kernel : ∀ t : Fin grid0.N, _)

/-- Every (batch, tile) is some grid point's. -/
theorem onto0 : ∀ (b : Fin 8) (q : Fin 4), ∃ t : Fin cfg0.N, win0_0.index t (0 : Fin 3) = b.val ∧ win0_0.index t (1 : Fin 3) = q.val :=
  (by decide +kernel : ∀ (b : Fin 8) (q : Fin 4), ∃ t : Fin grid0.N, win0_0.index t (0 : Fin 3) = b.val ∧ win0_0.index t (1 : Fin 3) = q.val)

/-- The query block at a point is rows 256q … of batch b of the query array. -/
theorem iblk0_0_apply (c : Dev nD) (t : Fin cfg0.N) (x : S1x256x1024.Idx) (k : S8x1024x1024.Idx)
    (h0 : (k 0).val = win0_0.index t (0 : Fin 3)) (h1 : (k 1).val = win0_0.index t (1 : Fin 3) * 256 + (x 1).val) (h2 : (k 2).val = (x 2).val) :
    (iblk0 V c 0 t : Vec Ideal S1x256x1024 .f32) x = (V c main_arg0 : S8x1024x1024.Idx → EReal) k := by
  obtain ⟨-, -, e2, -⟩ := idx0 t
  have hx0 : (x 0).val = 0 := by have h : (x 0).val < 1 := (x 0).isLt; omega
  unfold iblk0
  rw [View.read_apply]
  show V c main_arg0 _ = V c main_arg0 _
  congr 1
  funext a
  apply Fin.ext
  match a with
  | ⟨0, _⟩ => show win0_0.index t (0 : Fin 3) * 1 + 1 * (x 0).val = (k 0).val; omega
  | ⟨1, _⟩ => show win0_0.index t (1 : Fin 3) * 256 + 1 * (x 1).val = (k 1).val; omega
  | ⟨2, _⟩ => show win0_0.index t (2 : Fin 3) * 1024 + 1 * (x 2).val = (k 2).val; omega

/-- The support block at a point is batch b of the support array, whole. -/
theorem iblk0_1_apply (c : Dev nD) (t : Fin cfg0.N) (x : S1x1024x1024.Idx) (k : S8x1024x1024.Idx)
    (h0 : (k 0).val = win0_0.index t (0 : Fin 3)) (h1 : (k 1).val = (x 1).val) (h2 : (k 2).val = (x 2).val) :
    (iblk0 V c 1 t : Vec Ideal S1x1024x1024 .f32) x = (V c main_arg0 : S8x1024x1024.Idx → EReal) k := by
  obtain ⟨-, -, -, e3, e4, e5, -⟩ := idx0 t
  have hx0 : (x 0).val = 0 := by have h : (x 0).val < 1 := (x 0).isLt; omega
  unfold iblk0
  rw [View.read_apply]
  show V c main_arg0 _ = V c main_arg0 _
  congr 1
  funext a
  apply Fin.ext
  match a with
  | ⟨0, _⟩ => show win0_1.index t (0 : Fin 3) * 1 + 1 * (x 0).val = (k 0).val; omega
  | ⟨1, _⟩ => show win0_1.index t (1 : Fin 3) * 1024 + 1 * (x 1).val = (k 1).val; omega
  | ⟨2, _⟩ => show win0_1.index t (2 : Fin 3) * 1024 + 1 * (x 2).val = (k 2).val; omega

/-- What a point writes back of the weights array is its block of `weightsArr` of the arrays as the call found them. -/
theorem flushed0_3_eq (c : Dev nD) (t : Fin cfg0.N) :
    (dat0 V c).flushed 3 t = ((cfg0.win 3).blk t).view.read (Elt Ideal) (weightsArr (n := 1024) (V c main_arg0) (V c main_arg0)) := by
  show (cfg0.win 3).cut (grid0.coords t) ((dat0 V c).after 3 t) = _
  rw [after0_3]
  unfold out0_3
  rw [View.canon_unit_zero hz3]
  simp only [View.ld_unit_zero (S := S1x256x1024) hz3, View.ld_unit_zero (S := S1x1024x1024) hz3]
  obtain ⟨hb, hq, e2, e3, e4, e5, e6, e7, e8, e9, e10, e11⟩ := idx0 t
  funext y
  have hy0 : (y 0).val < 1 := (y 0).isLt
  have hy1 : (y 1).val < 256 := (y 1).isLt
  have hy2 : (y 2).val < 1024 := (y 2).isLt
  obtain ⟨r, j, rfl⟩ : ∃ (r : Fin 256) (j : Fin 1024), y = (ix3 (0 : Fin 1) r j : S1x256x1024.Idx) :=
    ⟨⟨(y 1).val, hy1⟩, ⟨(y 2).val, hy2⟩, funext fun a => by
      match a with
      | ⟨0, _⟩ => exact Fin.ext (by show (y 0).val = 0; omega)
      | ⟨1, _⟩ => rfl
      | ⟨2, _⟩ => rfl⟩
  show k0_pay3 (F := Ideal) (k0_pay6 (iblk0 V c 0 t) (iblk0 V c 1 t)) (ix3 (0 : Fin 1) r j)
    = weightsArr (n := 1024) (V c main_arg0) (V c main_arg0) (((cfg0.win 3).blk t).view.emb (ix3 (0 : Fin 1) r j))
  rw [pay3_apply, pay6_apply]
  unfold weightsArr
  refine weights_congr (fun k => iblk0_0_apply V c t _ _ ?_ ?_ ?_) (fun j' k => iblk0_1_apply V c t _ _ ?_ ?_ ?_) (Fin.ext ?_)
  · show win0_3.index t (0 : Fin 3) * 1 + 1 * 0 = win0_0.index t (0 : Fin 3); omega
  · show win0_3.index t (1 : Fin 3) * 256 + 1 * r.val = win0_0.index t (1 : Fin 3) * 256 + r.val; omega
  · rfl
  · show win0_3.index t (0 : Fin 3) * 1 + 1 * 0 = win0_0.index t (0 : Fin 3); omega
  · rfl
  · rfl
  · show j.val = win0_3.index t (2 : Fin 3) * 1024 + 1 * j.val; omega

/-- The blocks tile the weights array: it ends holding `weightsArr`. -/
theorem final0_3 (c : Dev nD) : (dat0 V c).arrAt 3 cfg0.N = weightsArr (n := 1024) (V c main_arg0) (V c main_arg0) :=
  (dat0 V c).arrAt_eq_of_cover 3 _ (fun t _ => flushed0_3_eq V c t) fun i => by
    have hi0 : (i 0).val < 8 := (i 0).isLt
    have hi1 : (i 1).val < 1024 := (i 1).isLt
    have hi2 : (i 2).val < 1024 := (i 2).isLt
    obtain ⟨t, ht0, ht1⟩ := onto0 ⟨(i 0).val, hi0⟩ ⟨(i 1).val / 256, by omega⟩
    have ht0' : win0_0.index t (0 : Fin 3) = (i 0).val := ht0
    have ht1' : win0_0.index t (1 : Fin 3) = (i 1).val / 256 := ht1
    obtain ⟨hb, hq, e2, e3, e4, e5, e6, e7, e8, e9, e10, e11⟩ := idx0 t
    refine ⟨t, flush0_3 t, ?_⟩
    show i ∈ ((View.whole main_v0_1).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 256 ≤ (i 1).val ∧ (i 1).val < win0_3.index t (1 : Fin 3) * 256 + 256; omega
    | ⟨2, _⟩ => show win0_3.index t (2 : Fin 3) * 1024 ≤ (i 2).val ∧ (i 2).val < win0_3.index t (2 : Fin 3) * 1024 + 1024; omega

/-! ## Call 1 -/

/-- The printed index maps over the grid: every window's block index is (batch, tile, 0) except the support window's, (batch, 0, 0). -/
theorem idx1 : ∀ t : Fin cfg1.N, win1_0.index t (0 : Fin 3) < 8 ∧ win1_0.index t (1 : Fin 3) < 8 ∧ win1_0.index t (2 : Fin 3) = 0
    ∧ win1_1.index t (0 : Fin 3) = win1_0.index t (0 : Fin 3) ∧ win1_1.index t (1 : Fin 3) = 0 ∧ win1_1.index t (2 : Fin 3) = 0
    ∧ win1_2.index t (0 : Fin 3) = win1_0.index t (0 : Fin 3) ∧ win1_2.index t (1 : Fin 3) = win1_0.index t (1 : Fin 3) ∧ win1_2.index t (2 : Fin 3) = 0
    ∧ win1_3.index t (0 : Fin 3) = win1_0.index t (0 : Fin 3) ∧ win1_3.index t (1 : Fin 3) = win1_0.index t (1 : Fin 3) ∧ win1_3.index t (2 : Fin 3) = 0 :=
  (by decide +kernel : ∀ t : Fin grid1.N, _)

/-- Every (batch, tile) is some grid point's. -/
theorem onto1 : ∀ (b : Fin 8) (q : Fin 8), ∃ t : Fin cfg1.N, win1_0.index t (0 : Fin 3) = b.val ∧ win1_0.index t (1 : Fin 3) = q.val :=
  (by decide +kernel : ∀ (b : Fin 8) (q : Fin 8), ∃ t : Fin grid1.N, win1_0.index t (0 : Fin 3) = b.val ∧ win1_0.index t (1 : Fin 3) = q.val)

/-- The query block at a point is rows 256q … of batch b of the query array. -/
theorem iblk1_0_apply (c : Dev nD) (t : Fin cfg1.N) (x : S1x256x1024.Idx) (k : S8x2048x1024.Idx)
    (h0 : (k 0).val = win1_0.index t (0 : Fin 3)) (h1 : (k 1).val = win1_0.index t (1 : Fin 3) * 256 + (x 1).val) (h2 : (k 2).val = (x 2).val) :
    (iblk1 V c 0 t : Vec Ideal S1x256x1024 .f32) x = (V c main_arg1 : S8x2048x1024.Idx → EReal) k := by
  obtain ⟨-, -, e2, -⟩ := idx1 t
  have hx0 : (x 0).val = 0 := by have h : (x 0).val < 1 := (x 0).isLt; omega
  unfold iblk1
  rw [View.read_apply]
  show V c main_arg1 _ = V c main_arg1 _
  congr 1
  funext a
  apply Fin.ext
  match a with
  | ⟨0, _⟩ => show win1_0.index t (0 : Fin 3) * 1 + 1 * (x 0).val = (k 0).val; omega
  | ⟨1, _⟩ => show win1_0.index t (1 : Fin 3) * 256 + 1 * (x 1).val = (k 1).val; omega
  | ⟨2, _⟩ => show win1_0.index t (2 : Fin 3) * 1024 + 1 * (x 2).val = (k 2).val; omega

/-- The support block at a point is batch b of the support array, whole. -/
theorem iblk1_1_apply (c : Dev nD) (t : Fin cfg1.N) (x : S1x1024x1024.Idx) (k : S8x1024x1024.Idx)
    (h0 : (k 0).val = win1_0.index t (0 : Fin 3)) (h1 : (k 1).val = (x 1).val) (h2 : (k 2).val = (x 2).val) :
    (iblk1 V c 1 t : Vec Ideal S1x1024x1024 .f32) x = (V c main_arg0 : S8x1024x1024.Idx → EReal) k := by
  obtain ⟨-, -, -, e3, e4, e5, -⟩ := idx1 t
  have hx0 : (x 0).val = 0 := by have h : (x 0).val < 1 := (x 0).isLt; omega
  unfold iblk1
  rw [View.read_apply]
  show V c main_arg0 _ = V c main_arg0 _
  congr 1
  funext a
  apply Fin.ext
  match a with
  | ⟨0, _⟩ => show win1_1.index t (0 : Fin 3) * 1 + 1 * (x 0).val = (k 0).val; omega
  | ⟨1, _⟩ => show win1_1.index t (1 : Fin 3) * 1024 + 1 * (x 1).val = (k 1).val; omega
  | ⟨2, _⟩ => show win1_1.index t (2 : Fin 3) * 1024 + 1 * (x 2).val = (k 2).val; omega

/-- What a point writes back of the weights array is its block of `weightsArr` of the arrays as the call found them. -/
theorem flushed1_3_eq (c : Dev nD) (t : Fin cfg1.N) :
    (dat1 V c).flushed 3 t = ((cfg1.win 3).blk t).view.read (Elt Ideal) (weightsArr (n := 2048) (V c main_arg1) (V c main_arg0)) := by
  show (cfg1.win 3).cut (grid1.coords t) ((dat1 V c).after 3 t) = _
  rw [after1_3]
  unfold out1_3
  rw [View.canon_unit_zero hz3]
  simp only [View.ld_unit_zero (S := S1x256x1024) hz3, View.ld_unit_zero (S := S1x1024x1024) hz3]
  obtain ⟨hb, hq, e2, e3, e4, e5, e6, e7, e8, e9, e10, e11⟩ := idx1 t
  funext y
  have hy0 : (y 0).val < 1 := (y 0).isLt
  have hy1 : (y 1).val < 256 := (y 1).isLt
  have hy2 : (y 2).val < 1024 := (y 2).isLt
  obtain ⟨r, j, rfl⟩ : ∃ (r : Fin 256) (j : Fin 1024), y = (ix3 (0 : Fin 1) r j : S1x256x1024.Idx) :=
    ⟨⟨(y 1).val, hy1⟩, ⟨(y 2).val, hy2⟩, funext fun a => by
      match a with
      | ⟨0, _⟩ => exact Fin.ext (by show (y 0).val = 0; omega)
      | ⟨1, _⟩ => rfl
      | ⟨2, _⟩ => rfl⟩
  show k1_pay3 (F := Ideal) (k1_pay6 (iblk1 V c 0 t) (iblk1 V c 1 t)) (ix3 (0 : Fin 1) r j)
    = weightsArr (n := 2048) (V c main_arg1) (V c main_arg0) (((cfg1.win 3).blk t).view.emb (ix3 (0 : Fin 1) r j))
  rw [pay3_apply1, pay6_apply1]
  unfold weightsArr
  refine weights_congr (fun k => iblk1_0_apply V c t _ _ ?_ ?_ ?_) (fun j' k => iblk1_1_apply V c t _ _ ?_ ?_ ?_) (Fin.ext ?_)
  · show win1_3.index t (0 : Fin 3) * 1 + 1 * 0 = win1_0.index t (0 : Fin 3); omega
  · show win1_3.index t (1 : Fin 3) * 256 + 1 * r.val = win1_0.index t (1 : Fin 3) * 256 + r.val; omega
  · rfl
  · show win1_3.index t (0 : Fin 3) * 1 + 1 * 0 = win1_0.index t (0 : Fin 3); omega
  · rfl
  · rfl
  · show j.val = win1_3.index t (2 : Fin 3) * 1024 + 1 * j.val; omega

/-- The blocks tile the weights array: it ends holding `weightsArr`. -/
theorem final1_3 (c : Dev nD) : (dat1 V c).arrAt 3 cfg1.N = weightsArr (n := 2048) (V c main_arg1) (V c main_arg0) :=
  (dat1 V c).arrAt_eq_of_cover 3 _ (fun t _ => flushed1_3_eq V c t) fun i => by
    have hi0 : (i 0).val < 8 := (i 0).isLt
    have hi1 : (i 1).val < 2048 := (i 1).isLt
    have hi2 : (i 2).val < 1024 := (i 2).isLt
    obtain ⟨t, ht0, ht1⟩ := onto1 ⟨(i 0).val, hi0⟩ ⟨(i 1).val / 256, by omega⟩
    have ht0' : win1_0.index t (0 : Fin 3) = (i 0).val := ht0
    have ht1' : win1_0.index t (1 : Fin 3) = (i 1).val / 256 := ht1
    obtain ⟨hb, hq, e2, e3, e4, e5, e6, e7, e8, e9, e10, e11⟩ := idx1 t
    refine ⟨t, flush1_3 t, ?_⟩
    show i ∈ ((View.whole main_v1_1).slice (win1_3.rect t)).set
    rw [View.set_slice_whole, Rect.mem_set_unit]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 256 ≤ (i 1).val ∧ (i 1).val < win1_3.index t (1 : Fin 3) * 256 + 256; omega
    | ⟨2, _⟩ => show win1_3.index t (2 : Fin 3) * 1024 ≤ (i 2).val ∧ (i 2).val < win1_3.index t (2 : Fin 3) * 1024 + 1024; omega

end
end Cert.CosAttn
end
-- ==== Proof.KernelIdealValueAug.lean ====
/-
  What the two augmented result arrays hold after the run, at the extended reals, index by index.

  A grid point's augmented block is `[1, 256, 2048]`: the body stores the query block in its left half (columns 0 … 1023)
  and the rows' task embeddings in its right half (columns 1024 … 2047). Read as one function of the block's index, that is
  the query row's entry on the left and the row's task embedding on the right, of the point's two input blocks; and those
  are rows of the query array and a batch of the support array, so the block is the matching block of `augArr`. The
  blocks tile the array.
-/
import proofs.«109901_j17076789968986_1_alg».proof.Proof.KernelIdealValue

set_option maxRecDepth 16384

noncomputable section

namespace Cert.CosAttn

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

/-- The augmented block as one function of the query block `x0` and the support block `x1`: the query row's entry on the
left half of the last axis, the row's task embedding on the right half. -/
def augBlk (x0 : Vec Ideal S1x256x1024 .f32) (x1 : Vec Ideal S1x1024x1024 .f32) : S1x256x2048.Idx → EReal :=
  fun y => if h : (y 2).val < 1024 then x0 (ix3 (0 : Fin 1) (⟨(y 1).val, (y 1).isLt⟩ : Fin 256) (⟨(y 2).val, h⟩ : Fin 1024))
    else task (fun k => x0 (ix3 (0 : Fin 1) (⟨(y 1).val, (y 1).isLt⟩ : Fin 256) k)) (fun j k => x1 (ix3 (0 : Fin 1) j k))
      ⟨(y 2).val - 1024, by have h2 : (y 2).val < 2048 := (y 2).isLt; omega⟩

section
variable (V : (c : Dev nD) → (b : Ref sig .tc) → Buf (Elt Ideal) ((c : Thread nD τ).loc b))

/-- On the left half the block is the query block's entry. -/
theorem augBlk_left (x0 : Vec Ideal S1x256x1024 .f32) (x1 : Vec Ideal S1x1024x1024 .f32) (y : S1x256x2048.Idx)
    (r : Fin 256) (k : Fin 1024) (h1 : (y 1).val = r.val) (h2 : (y 2).val = k.val) :
    augBlk x0 x1 y = x0 (ix3 (0 : Fin 1) r k) := by
  unfold augBlk
  have hlt : (y 2).val < 1024 := by rw [h2]; exact k.isLt
  rw [dif_pos hlt]
  refine congrArg x0 (funext fun a => ?_)
  match a with
  | ⟨0, _⟩ => rfl
  | ⟨1, _⟩ => exact Fin.ext h1
  | ⟨2, _⟩ => exact Fin.ext h2

/-- On the right half the block is the row's task embedding. -/
theorem augBlk_right (x0 : Vec Ideal S1x256x1024 .f32) (x1 : Vec Ideal S1x1024x1024 .f32) (y : S1x256x2048.Idx)
    (r : Fin 256) (d : Fin 1024) (h1 : (y 1).val = r.val) (h2 : (y 2).val = 1024 + d.val) :
    augBlk x0 x1 y = task (fun k => x0 (ix3 (0 : Fin 1) r k)) (fun j k => x1 (ix3 (0 : Fin 1) j k)) d := by
  unfold augBlk
  have hge : ¬ (y 2).val < 1024 := by rw [h2]; omega
  rw [dif_neg hge]
  refine task_congr (fun k => congrArg x0 (funext fun a => ?_)) (fun _ _ => rfl) (Fin.ext ?_)
  · match a with
    | ⟨0, _⟩ => rfl
    | ⟨1, _⟩ => exact Fin.ext h1
    | ⟨2, _⟩ => rfl
  · show (y 2).val - 1024 = d.val; omega

/-- On the left half the augmented array is the query array's entry. -/
theorem augArr_left {n : ℕ} (Q : (⟨3, ![8, n, 1024]⟩ : Shape).Idx → EReal) (S : (⟨3, ![8, 1024, 1024]⟩ : Shape).Idx → EReal)
    (i : (⟨3, ![8, n, 2048]⟩ : Shape).Idx) (b : Fin 8) (r : Fin n) (k : Fin 1024)
    (h0 : (i 0).val = b.val) (h1 : (i 1).val = r.val) (h2 : (i 2).val = k.val) :
    augArr Q S i = Q (ix3 b r k) := by
  unfold augArr
  have hlt : (i 2).val < 1024 := by rw [h2]; exact k.isLt
  rw [dif_pos hlt]
  refine congrArg Q (funext fun a => ?_)
  match a with
  | ⟨0, _⟩ => exact Fin.ext h0
  | ⟨1, _⟩ => exact Fin.ext h1
  | ⟨2, _⟩ => exact Fin.ext h2

/-- On the right half the augmented array is the row's task embedding. -/
theorem augArr_right {n : ℕ} (Q : (⟨3, ![8, n, 1024]⟩ : Shape).Idx → EReal) (S : (⟨3, ![8, 1024, 1024]⟩ : Shape).Idx → EReal)
    (i : (⟨3, ![8, n, 2048]⟩ : Shape).Idx) (b : Fin 8) (r : Fin n) (d : Fin 1024)
    (h0 : (i 0).val = b.val) (h1 : (i 1).val = r.val) (h2 : (i 2).val = 1024 + d.val) :
    augArr Q S i = task (fun k => Q (ix3 b r k)) (fun j k => S (ix3 b j k)) d := by
  unfold augArr
  have hge : ¬ (i 2).val < 1024 := by rw [h2]; omega
  rw [dif_neg hge]
  refine task_congr (fun k => congrArg Q (funext fun a => ?_)) (fun j k => congrArg S (funext fun a => ?_)) (Fin.ext ?_)
  · match a with
    | ⟨0, _⟩ => exact Fin.ext h0
    | ⟨1, _⟩ => exact Fin.ext h1
    | ⟨2, _⟩ => rfl
  · match a with
    | ⟨0, _⟩ => exact Fin.ext h0
    | ⟨1, _⟩ => rfl
    | ⟨2, _⟩ => rfl
  · show (i 2).val - 1024 = d.val; omega

/-! ## Call 0 -/

/-- The right half of the body's block: the piece stored at column offset 1024 holds the task embedding of each row. -/
theorem right_piece0 (x0 : Vec Ideal S1x256x1024 .f32) (x1 : Vec Ideal S1x1024x1024 .f32) (x : S1x256x1024.Idx) :
    k0_pay2 (F := Ideal) (k0_pay7 x0 x1) x = augBlk x0 x1 (rr0.emb x) := by
  have hx0 : (x 0).val < 1 := (x 0).isLt
  have hx1 : (x 1).val < 256 := (x 1).isLt
  have hx2 : (x 2).val < 1024 := (x 2).isLt
  obtain ⟨r, d, rfl⟩ : ∃ (r : Fin 256) (d : Fin 1024), x = (ix3 (0 : Fin 1) r d : S1x256x1024.Idx) :=
    ⟨⟨(x 1).val, hx1⟩, ⟨(x 2).val, hx2⟩, funext fun a => by
      match a with
      | ⟨0, _⟩ => exact Fin.ext (by show (x 0).val = 0; omega)
      | ⟨1, _⟩ => rfl
      | ⟨2, _⟩ => rfl⟩
  rw [pay2_apply, pay7_apply]
  refine (augBlk_right x0 x1 _ r d ?_ ?_).symm
  · show 0 + 1 * r.val = r.val; omega
  · show 1024 + 1 * d.val = 1024 + d.val; omega

/-- The left half: the piece stored at column offset 0 holds the query block itself. -/
theorem left_piece0 (x0 : Vec Ideal S1x256x1024 .f32) (x1 : Vec Ideal S1x1024x1024 .f32) (x : S1x256x1024.Idx) :
    k0_pay1 (F := Ideal) (k0_pay4 x0) x = augBlk x0 x1 (rl0.emb x) := by
  have hx0 : (x 0).val < 1 := (x 0).isLt
  have hx1 : (x 1).val < 256 := (x 1).isLt
  have hx2 : (x 2).val < 1024 := (x 2).isLt
  obtain ⟨r, k, rfl⟩ : ∃ (r : Fin 256) (k : Fin 1024), x = (ix3 (0 : Fin 1) r k : S1x256x1024.Idx) :=
    ⟨⟨(x 1).val, hx1⟩, ⟨(x 2).val, hx2⟩, funext fun a => by
      match a with
      | ⟨0, _⟩ => exact Fin.ext (by show (x 0).val = 0; omega)
      | ⟨1, _⟩ => rfl
      | ⟨2, _⟩ => rfl⟩
  rw [pay1_apply, pay4_apply]
  refine (augBlk_left x0 x1 _ r k ?_ ?_).symm
  · show 0 + 1 * r.val = r.val; omega
  · show 0 + 1 * k.val = k.val; omega

/-- The block the body leaves is `augBlk` of its two input blocks: its two stored halves are the halves of that one function. -/
theorem out0_2_eq (x0 : Vec Ideal S1x256x1024 .f32) (x1 : Vec Ideal S1x1024x1024 .f32) :
    out0_2 (F := Ideal) x0 x1 = augBlk x0 x1 := by
  funext y
  unfold out0_2
  simp only [View.ld_unit_zero (S := S1x256x1024) hz3, View.ld_unit_zero (S := S1x1024x1024) hz3]
  refine View.canon_apply_of_pieces (Val := Elt Ideal) (S := S1x256x2048) (e := .f32) (augBlk x0 x1 : S1x256x2048.Idx → Elt Ideal .f32) _ ?_ y (cover0_2 _ _ y)
  intro p hp
  simp only [List.mem_cons, List.not_mem_nil, or_false] at hp
  rcases hp with rfl | rfl
  · exact fun x => right_piece0 x0 x1 x
  · exact fun x => left_piece0 x0 x1 x

/-- What a point writes back of the augmented array is its block of `augArr` of the arrays as the call found them. -/
theorem flushed0_2_eq (c : Dev nD) (t : Fin cfg0.N) :
    (dat0 V c).flushed 2 t = ((cfg0.win 2).blk t).view.read (Elt Ideal) (augArr (n := 1024) (V c main_arg0) (V c main_arg0)) := by
  show (cfg0.win 2).cut (grid0.coords t) ((dat0 V c).after 2 t) = _
  rw [after0_2, out0_2_eq]
  obtain ⟨hb, hq, e2, e3, e4, e5, e6, e7, e8, e9, e10, e11⟩ := idx0 t
  funext y
  have hy0 : (y 0).val < 1 := (y 0).isLt
  have hy1 : (y 1).val < 256 := (y 1).isLt
  have hy2 : (y 2).val < 2048 := (y 2).isLt
  show augBlk (iblk0 V c 0 t) (iblk0 V c 1 t) y
    = augArr (n := 1024) (V c main_arg0) (V c main_arg0) (((cfg0.win 2).blk t).view.emb y)
  by_cases h : (y 2).val < 1024
  · refine (augBlk_left _ _ y ⟨(y 1).val, hy1⟩ ⟨(y 2).val, h⟩ rfl rfl).trans ?_
    refine (iblk0_0_apply V c t _ (ix3 (⟨win0_0.index t (0 : Fin 3), hb⟩ : Fin 8)
      (⟨win0_0.index t (1 : Fin 3) * 256 + (y 1).val, by omega⟩ : Fin 1024) (⟨(y 2).val, h⟩ : Fin 1024)) rfl rfl rfl).trans ?_
    refine (augArr_left _ _ _ _ _ _ ?_ ?_ ?_).symm
    · show win0_2.index t (0 : Fin 3) * 1 + 1 * (y 0).val = win0_0.index t (0 : Fin 3); omega
    · show win0_2.index t (1 : Fin 3) * 256 + 1 * (y 1).val = win0_0.index t (1 : Fin 3) * 256 + (y 1).val; omega
    · show win0_2.index t (2 : Fin 3) * 2048 + 1 * (y 2).val = (y 2).val; omega
  · refine (augBlk_right _ _ y ⟨(y 1).val, hy1⟩ ⟨(y 2).val - 1024, by omega⟩ rfl
      (by show (y 2).val = 1024 + ((y 2).val - 1024); omega)).trans ?_
    refine Eq.trans ?_ (augArr_right _ _ _ (⟨win0_0.index t (0 : Fin 3), hb⟩ : Fin 8)
      (⟨win0_0.index t (1 : Fin 3) * 256 + (y 1).val, by omega⟩ : Fin 1024) (⟨(y 2).val - 1024, by omega⟩ : Fin 1024) ?_ ?_ ?_).symm
    · exact task_congr (fun k => iblk0_0_apply V c t _ _ rfl rfl rfl) (fun j k => iblk0_1_apply V c t _ _ rfl rfl rfl) rfl
    · show win0_2.index t (0 : Fin 3) * 1 + 1 * (y 0).val = win0_0.index t (0 : Fin 3); omega
    · show win0_2.index t (1 : Fin 3) * 256 + 1 * (y 1).val = win0_0.index t (1 : Fin 3) * 256 + (y 1).val; omega
    · show win0_2.index t (2 : Fin 3) * 2048 + 1 * (y 2).val = 1024 + ((y 2).val - 1024); omega

/-- The blocks tile the augmented array: it ends holding `augArr`. -/
theorem final0_2 (c : Dev nD) : (dat0 V c).arrAt 2 cfg0.N = augArr (n := 1024) (V c main_arg0) (V c main_arg0) :=
  (dat0 V c).arrAt_eq_of_cover 2 _ (fun t _ => flushed0_2_eq V c t) fun i => by
    have hi0 : (i 0).val < 8 := (i 0).isLt
    have hi1 : (i 1).val < 1024 := (i 1).isLt
    have hi2 : (i 2).val < 2048 := (i 2).isLt
    obtain ⟨t, ht0, ht1⟩ := onto0 ⟨(i 0).val, hi0⟩ ⟨(i 1).val / 256, by omega⟩
    have ht0' : win0_0.index t (0 : Fin 3) = (i 0).val := ht0
    have ht1' : win0_0.index t (1 : Fin 3) = (i 1).val / 256 := ht1
    obtain ⟨hb, hq, e2, e3, e4, e5, e6, e7, e8, e9, e10, e11⟩ := idx0 t
    refine ⟨t, flush0_2 t, ?_⟩
    show i ∈ ((View.whole main_v0_0).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 256 ≤ (i 1).val ∧ (i 1).val < win0_2.index t (1 : Fin 3) * 256 + 256; omega
    | ⟨2, _⟩ => show win0_2.index t (2 : Fin 3) * 2048 ≤ (i 2).val ∧ (i 2).val < win0_2.index t (2 : Fin 3) * 2048 + 2048; omega

/-! ## Call 1 -/

/-- The right half of the body's block: the piece stored at column offset 1024 holds the task embedding of each row. -/
theorem right_piece1 (x0 : Vec Ideal S1x256x1024 .f32) (x1 : Vec Ideal S1x1024x1024 .f32) (x : S1x256x1024.Idx) :
    k1_pay2 (F := Ideal) (k1_pay7 x0 x1) x = augBlk x0 x1 (rr1.emb x) := by
  have hx0 : (x 0).val < 1 := (x 0).isLt
  have hx1 : (x 1).val < 256 := (x 1).isLt
  have hx2 : (x 2).val < 1024 := (x 2).isLt
  obtain ⟨r, d, rfl⟩ : ∃ (r : Fin 256) (d : Fin 1024), x = (ix3 (0 : Fin 1) r d : S1x256x1024.Idx) :=
    ⟨⟨(x 1).val, hx1⟩, ⟨(x 2).val, hx2⟩, funext fun a => by
      match a with
      | ⟨0, _⟩ => exact Fin.ext (by show (x 0).val = 0; omega)
      | ⟨1, _⟩ => rfl
      | ⟨2, _⟩ => rfl⟩
  rw [pay2_apply1, pay7_apply1]
  refine (augBlk_right x0 x1 _ r d ?_ ?_).symm
  · show 0 + 1 * r.val = r.val; omega
  · show 1024 + 1 * d.val = 1024 + d.val; omega

/-- The left half: the piece stored at column offset 0 holds the query block itself. -/
theorem left_piece1 (x0 : Vec Ideal S1x256x1024 .f32) (x1 : Vec Ideal S1x1024x1024 .f32) (x : S1x256x1024.Idx) :
    k1_pay1 (F := Ideal) (k1_pay4 x0) x = augBlk x0 x1 (rl1.emb x) := by
  have hx0 : (x 0).val < 1 := (x 0).isLt
  have hx1 : (x 1).val < 256 := (x 1).isLt
  have hx2 : (x 2).val < 1024 := (x 2).isLt
  obtain ⟨r, k, rfl⟩ : ∃ (r : Fin 256) (k : Fin 1024), x = (ix3 (0 : Fin 1) r k : S1x256x1024.Idx) :=
    ⟨⟨(x 1).val, hx1⟩, ⟨(x 2).val, hx2⟩, funext fun a => by
      match a with
      | ⟨0, _⟩ => exact Fin.ext (by show (x 0).val = 0; omega)
      | ⟨1, _⟩ => rfl
      | ⟨2, _⟩ => rfl⟩
  rw [pay1_apply1, pay4_apply1]
  refine (augBlk_left x0 x1 _ r k ?_ ?_).symm
  · show 0 + 1 * r.val = r.val; omega
  · show 0 + 1 * k.val = k.val; omega

/-- The block the body leaves is `augBlk` of its two input blocks: its two stored halves are the halves of that one function. -/
theorem out1_2_eq (x0 : Vec Ideal S1x256x1024 .f32) (x1 : Vec Ideal S1x1024x1024 .f32) :
    out1_2 (F := Ideal) x0 x1 = augBlk x0 x1 := by
  funext y
  unfold out1_2
  simp only [View.ld_unit_zero (S := S1x256x1024) hz3, View.ld_unit_zero (S := S1x1024x1024) hz3]
  refine View.canon_apply_of_pieces (Val := Elt Ideal) (S := S1x256x2048) (e := .f32) (augBlk x0 x1 : S1x256x2048.Idx → Elt Ideal .f32) _ ?_ y (cover1_2 _ _ y)
  intro p hp
  simp only [List.mem_cons, List.not_mem_nil, or_false] at hp
  rcases hp with rfl | rfl
  · exact fun x => right_piece1 x0 x1 x
  · exact fun x => left_piece1 x0 x1 x

/-- What a point writes back of the augmented array is its block of `augArr` of the arrays as the call found them. -/
theorem flushed1_2_eq (c : Dev nD) (t : Fin cfg1.N) :
    (dat1 V c).flushed 2 t = ((cfg1.win 2).blk t).view.read (Elt Ideal) (augArr (n := 2048) (V c main_arg1) (V c main_arg0)) := by
  show (cfg1.win 2).cut (grid1.coords t) ((dat1 V c).after 2 t) = _
  rw [after1_2, out1_2_eq]
  obtain ⟨hb, hq, e2, e3, e4, e5, e6, e7, e8, e9, e10, e11⟩ := idx1 t
  funext y
  have hy0 : (y 0).val < 1 := (y 0).isLt
  have hy1 : (y 1).val < 256 := (y 1).isLt
  have hy2 : (y 2).val < 2048 := (y 2).isLt
  show augBlk (iblk1 V c 0 t) (iblk1 V c 1 t) y
    = augArr (n := 2048) (V c main_arg1) (V c main_arg0) (((cfg1.win 2).blk t).view.emb y)
  by_cases h : (y 2).val < 1024
  · refine (augBlk_left _ _ y ⟨(y 1).val, hy1⟩ ⟨(y 2).val, h⟩ rfl rfl).trans ?_
    refine (iblk1_0_apply V c t _ (ix3 (⟨win1_0.index t (0 : Fin 3), hb⟩ : Fin 8)
      (⟨win1_0.index t (1 : Fin 3) * 256 + (y 1).val, by omega⟩ : Fin 2048) (⟨(y 2).val, h⟩ : Fin 1024)) rfl rfl rfl).trans ?_
    refine (augArr_left _ _ _ _ _ _ ?_ ?_ ?_).symm
    · show win1_2.index t (0 : Fin 3) * 1 + 1 * (y 0).val = win1_0.index t (0 : Fin 3); omega
    · show win1_2.index t (1 : Fin 3) * 256 + 1 * (y 1).val = win1_0.index t (1 : Fin 3) * 256 + (y 1).val; omega
    · show win1_2.index t (2 : Fin 3) * 2048 + 1 * (y 2).val = (y 2).val; omega
  · refine (augBlk_right _ _ y ⟨(y 1).val, hy1⟩ ⟨(y 2).val - 1024, by omega⟩ rfl
      (by show (y 2).val = 1024 + ((y 2).val - 1024); omega)).trans ?_
    refine Eq.trans ?_ (augArr_right _ _ _ (⟨win1_0.index t (0 : Fin 3), hb⟩ : Fin 8)
      (⟨win1_0.index t (1 : Fin 3) * 256 + (y 1).val, by omega⟩ : Fin 2048) (⟨(y 2).val - 1024, by omega⟩ : Fin 1024) ?_ ?_ ?_).symm
    · exact task_congr (fun k => iblk1_0_apply V c t _ _ rfl rfl rfl) (fun j k => iblk1_1_apply V c t _ _ rfl rfl rfl) rfl
    · show win1_2.index t (0 : Fin 3) * 1 + 1 * (y 0).val = win1_0.index t (0 : Fin 3); omega
    · show win1_2.index t (1 : Fin 3) * 256 + 1 * (y 1).val = win1_0.index t (1 : Fin 3) * 256 + (y 1).val; omega
    · show win1_2.index t (2 : Fin 3) * 2048 + 1 * (y 2).val = 1024 + ((y 2).val - 1024); omega

/-- The blocks tile the augmented array: it ends holding `augArr`. -/
theorem final1_2 (c : Dev nD) : (dat1 V c).arrAt 2 cfg1.N = augArr (n := 2048) (V c main_arg1) (V c main_arg0) :=
  (dat1 V c).arrAt_eq_of_cover 2 _ (fun t _ => flushed1_2_eq V c t) fun i => by
    have hi0 : (i 0).val < 8 := (i 0).isLt
    have hi1 : (i 1).val < 2048 := (i 1).isLt
    have hi2 : (i 2).val < 2048 := (i 2).isLt
    obtain ⟨t, ht0, ht1⟩ := onto1 ⟨(i 0).val, hi0⟩ ⟨(i 1).val / 256, by omega⟩
    have ht0' : win1_0.index t (0 : Fin 3) = (i 0).val := ht0
    have ht1' : win1_0.index t (1 : Fin 3) = (i 1).val / 256 := ht1
    obtain ⟨hb, hq, e2, e3, e4, e5, e6, e7, e8, e9, e10, e11⟩ := idx1 t
    refine ⟨t, flush1_2 t, ?_⟩
    show i ∈ ((View.whole main_v1_0).slice (win1_2.rect t)).set
    rw [View.set_slice_whole, Rect.mem_set_unit]
    intro a
    match a with
    | ⟨0, _⟩ => show win1_2.index t (0 : Fin 3) * 1 ≤ (i 0).val ∧ (i 0).val < win1_2.index t (0 : Fin 3) * 1 + 1; omega
    | ⟨1, _⟩ => show win1_2.index t (1 : Fin 3) * 256 ≤ (i 1).val ∧ (i 1).val < win1_2.index t (1 : Fin 3) * 256 + 256; omega
    | ⟨2, _⟩ => show win1_2.index t (2 : Fin 3) * 2048 ≤ (i 2).val ∧ (i 2).val < win1_2.index t (2 : Fin 3) * 2048 + 2048; omega

end
end Cert.CosAttn
end
-- ==== Proof.KernelIdealResults.lean ====
/-
  The kernel program's four result arrays after the run, as functions of the two embedding arrays at launch: the first
  call takes its query rows from the support array itself, the second from the query array; neither call writes an
  array the other reads, so both read the arrays as launched.
-/
import proofs.«109901_j17076789968986_1_alg».proof.Proof.KernelIdealValue
import proofs.«109901_j17076789968986_1_alg».proof.Proof.KernelIdealValueAug

noncomputable section

namespace Cert.CosAttn

open Cert.KernelIdeal Cert.KernelIdeal.Gen Cert.KernelIdeal.Run
open Idealize.ShloMosaic Idealize.ShloMosaic.TcCoe Idealize.SL.Sem Idealize.ShloMosaic.ValueIdx

variable (m : (ℓ : Loc nD τ sig) → Buf (Elt Ideal) ℓ)

/-- The first call's weights array. -/
theorem kernel_weights0 (c : Dev nD) :
    res0_g m c = weightsArr (n := 1024) (m ((c.tc : Thread nD τ).loc main_arg0)) (m ((c.tc : Thread nD τ).loc main_arg0)) :=
  final0_3 (V0 m) c

/-- The second call's weights array: the first call left both embedding arrays as launched. -/
theorem kernel_weights1 (c : Dev nD) :
    res1_g m c = weightsArr (n := 2048) (m ((c.tc : Thread nD τ).loc main_arg1)) (m ((c.tc : Thread nD τ).loc main_arg0)) := by
  refine (final1_3 (V1 m) c).trans ?_
  rw [show V1 m c main_arg1 = V0 m c main_arg1 from W1_of m c main_arg1 (by decide),
    show V1 m c main_arg0 = V0 m c main_arg0 from W1_of m c main_arg0 (by decide)]

/-- The first call's augmented array. -/
theorem kernel_aug0 (c : Dev nD) :
    res0_aug m c = augArr (n := 1024) (m ((c.tc : Thread nD τ).loc main_arg0)) (m ((c.tc : Thread nD τ).loc main_arg0)) :=
  final0_2 (V0 m) c

/-- The second call's augmented array. -/
theorem kernel_aug1 (c : Dev nD) :
    res1_aug m c = augArr (n := 2048) (m ((c.tc : Thread nD τ).loc main_arg1)) (m ((c.tc : Thread nD τ).loc main_arg0)) := by
  refine (final1_2 (V1 m) c).trans ?_
  rw [show V1 m c main_arg1 = V0 m c main_arg1 from W1_of m c main_arg1 (by decide),
    show V1 m c main_arg0 = V0 m c main_arg0 from W1_of m c main_arg0 (by decide)]

end Cert.CosAttn

end
-- ==== Proof.Bridge.lean ====
/-
  Both programs' results are the same functions of the two embedding arrays: the reference's four result terms, read
  index by index, are the weights array and the augmented array of its arguments — the support rows against
  themselves for the first pair of results, the query rows against the support rows for the second.
-/
import proofs.«109901_j17076789968986_1_alg».proof.Proof.ReferenceAug
import proofs.«109901_j17076789968986_1_alg».proof.Proof.KernelIdealResults

noncomputable section

namespace Cert.CosAttn

open Idealize.ShloMosaic Cert.ReferenceIdeal Cert.ReferenceIdeal.Gen Cert.ReferenceIdeal.Read ValueIdx

variable (a0 : (⟨S8x1024x1024, .f32⟩ : BufTy).Contents (Elt Ideal)) (a1 : (⟨S8x2048x1024, .f32⟩ : BufTy).Contents (Elt Ideal))

/-- The reference's support weights. -/
theorem ref_weights0 : val_main_v28 (F := Ideal) a0 = weightsArr (n := 1024) a0 a0 := by
  funext i
  obtain ⟨b, r, j, rfl⟩ : ∃ (b : Fin 8) (r : Fin 1024) (j : Fin 1024), i = (ix3 b r j : S8x1024x1024.Idx) := ⟨i 0, i 1, i 2, eq_ix3 i⟩
  exact ref_weights_support a0 b j r

/-- The reference's query weights. -/
theorem ref_weights1 : val_main_v39 (F := Ideal) a0 a1 = weightsArr (n := 2048) a1 a0 := by
  funext i
  obtain ⟨b, r, j, rfl⟩ : ∃ (b : Fin 8) (r : Fin 2048) (j : Fin 1024), i = (ix3 b r j : S8x2048x1024.Idx) := ⟨i 0, i 1, i 2, eq_ix3 i⟩
  exact ref_weights_query a0 a1 b j r

/-- The reference's augmented support array. -/
theorem ref_aug0 : val_main_v42 (F := Ideal) a0 = augArr (n := 1024) a0 a0 := by
  funext i
  obtain ⟨b, r, e, rfl⟩ : ∃ (b : Fin 8) (r : Fin 1024) (e : Fin 2048), i = (ix3 b r e : S8x1024x2048.Idx) := ⟨i 0, i 1, i 2, eq_ix3 i⟩
  unfold augArr
  by_cases h : e.val < 1024
  · rw [dif_pos (show ((ix3 b r e : S8x1024x2048.Idx) 2).val < 1024 from h)]
    exact ref_aug_support_left a0 b ⟨e.val, h⟩ r
  · rw [dif_neg (show ¬ ((ix3 b r e : S8x1024x2048.Idx) 2).val < 1024 from h)]
    have he : e = ⟨1024 + (⟨e.val - 1024, by have := e.isLt; omega⟩ : Fin 1024).val, by have := e.isLt; show 1024 + (e.val - 1024) < 2048; omega⟩ :=
      Fin.ext (by show e.val = 1024 + (e.val - 1024); omega)
    conv_lhs => rw [he]
    exact ref_aug_support_right a0 b ⟨e.val - 1024, by have := e.isLt; omega⟩ r

/-- The reference's augmented query array. -/
theorem ref_aug1 : val_main_v43 (F := Ideal) a0 a1 = augArr (n := 2048) a1 a0 := by
  funext i
  obtain ⟨b, r, e, rfl⟩ : ∃ (b : Fin 8) (r : Fin 2048) (e : Fin 2048), i = (ix3 b r e : S8x2048x2048.Idx) := ⟨i 0, i 1, i 2, eq_ix3 i⟩
  unfold augArr
  by_cases h : e.val < 1024
  · rw [dif_pos (show ((ix3 b r e : S8x2048x2048.Idx) 2).val < 1024 from h)]
    exact ref_aug_query_left a0 a1 b ⟨e.val, h⟩ r
  · rw [dif_neg (show ¬ ((ix3 b r e : S8x2048x2048.Idx) 2).val < 1024 from h)]
    have he : e = ⟨1024 + (⟨e.val - 1024, by have := e.isLt; omega⟩ : Fin 1024).val, by have := e.isLt; show 1024 + (e.val - 1024) < 2048; omega⟩ :=
      Fin.ext (by show e.val = 1024 + (e.val - 1024); omega)
    conv_lhs => rw [he]
    exact ref_aug_query_right a0 a1 b ⟨e.val - 1024, by have := e.isLt; omega⟩ r

end Cert.CosAttn

end
-- ==== Proof.lean ====
/-
  Cosine-similarity attention: a Pallas kernel (two pallas_calls: support rows against support rows, then query rows
  against support rows) against its jnp reference, over the extended reals.

  For a row x of 1024 features let nrm x = max (√(Σ x²)) ε. The cosine of a query row q with support row j is
  Σ_k (q_k / nrm q) · (s_jk / nrm s_j); the attention weights of q are the softmax of its 1024 cosines; its task
  embedding is the weights-weighted sum of the raw support rows; the augmented row is q followed by its task embedding
  (Proof/Spec.lean). The kernel computes these per block of 256 query rows against one batch's 1024 support rows —
  the row sums as lane reductions, the two contractions on the matrix unit, with roundings to bf16 that are the
  identity over the extended reals — and writes each block back into its place; the reference computes them on whole
  arrays. Index by index both are the SAME sums, maxima, quotients and exponentials of the same rows, so no law of
  arithmetic beyond reading each operation at an index is needed and the inputs' finiteness is never used.

  The three frames: every execution of each program terminates without fault and leaves its arguments unchanged
  (Proof/KernelRun.lean, Proof/KernelIdealRun.lean for the kernel read bit by bit and at the extended reals; the
  reference is a straight line of host operations). The idealized kernel is the kernel's own text read at the
  extended reals: nothing to preserve. The algebraic claim: the kernel's four result arrays (Proof/KernelIdealValue*.lean,
  Proof/KernelIdealResults.lean) and the reference's four results (Proof/Reference*.lean, Proof/Bridge.lean) are the
  weights array and the augmented array of the same arguments.
-/
import proofs.«109901_j17076789968986_1_alg».proof.Defs
import proofs.«109901_j17076789968986_1_alg».proof.Proof.Gen.Kernel
import proofs.«109901_j17076789968986_1_alg».proof.Proof.Gen.KernelIdeal
import proofs.«109901_j17076789968986_1_alg».proof.Proof.Gen.ReferenceIdeal
import proofs.«109901_j17076789968986_1_alg».proof.Proof.Gen.Pre_finite_inputs
import proofs.«109901_j17076789968986_1_alg».proof.Proof.KernelRun
import proofs.«109901_j17076789968986_1_alg».proof.Proof.Bridge
import Idealize.ShloMosaic.Adequacy
import Idealize.ShloMosaic.Init

noncomputable section

namespace Cert.Proof

open Idealize.ShloMosaic Idealize.SL.Sem Cert.CosAttn

theorem frame_k : Cert.frame_Kernel (hKernel := Cert.Kernel.Gen.facts) (hPre_finite_inputs := Cert.Pre_finite_inputs.Gen.facts) :=
  fun m ρ _ => Cert.Kernel.Run.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

/-- From memories agreeing on the arguments both programs end with the augmented arrays and the weights arrays of
    the same two embedding arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.res0_aug m c, fun c => Cert.KernelIdeal.Run.res1_aug m c,
    fun c => Cert.KernelIdeal.Run.res0_g m c, fun c => Cert.KernelIdeal.Run.res1_g m c,
    Cert.KernelIdeal.Run.run_main (F := Ideal) m ρ, ?_⟩
  refine (θ_run Cert.ReferenceIdeal.defs _ _).mono (fun _ h c => ?_) (Cert.ReferenceIdeal.Value.run (F := Ideal) m' ρ')
  obtain ⟨h42, h43, h28, h39, hargs⟩ := h c
  obtain ⟨g0, g1, -, -⟩ := hagree c
  refine ⟨h42.trans ?_, h43.trans ?_, h28.trans ?_, h39.trans ?_, hargs⟩
  · show _ = Cert.KernelIdeal.Run.res0_aug m c
    rw [Cert.ReferenceIdeal.Read.val_main_v42_eq, g0, kernel_aug0]; exact ref_aug0 _
  · show _ = Cert.KernelIdeal.Run.res1_aug m c
    rw [Cert.ReferenceIdeal.Read.val_main_v43_eq, g0, g1, kernel_aug1]; exact ref_aug1 _ _
  · show _ = Cert.KernelIdeal.Run.res0_g m c
    rw [Cert.ReferenceIdeal.Read.val_main_v28_eq, g0, kernel_weights0]; exact ref_weights0 _
  · show _ = Cert.KernelIdeal.Run.res1_g m c
    rw [Cert.ReferenceIdeal.Read.val_main_v39_eq, g0, g1, kernel_weights1]; exact ref_weights1 _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
